-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S50000 : Shape := ⟨1, ![50000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128 .f32) (main_arg10 : FVec F S128x10 .f32) (main_arg11 : FVec F S10 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x10 .f32 := Host.absf main_arg10
  let main_cst_14 : FVec F S_ .f32 := constant S_ .f32 0x7F800000#32
  let main_v40 : FVec F S128x10 .f32 := broadcastInDim S128x10 ![] bcast_S_S128x10 main_cst_14
  let main_v41 : IVec S128x10 1 := cmpf .olt main_v39 main_v40
  let main_c_15 : IVec S_ 1 := constantI S_ 1 1#1
  let main_v42 : IVec S_ 1 := (fun x v => Host.reduce IntOp.andi x v reducesTo_S128x10_S_d0_1 h_S_) main_v41 main_c_15
  let main_v43 : IVec S_ 1 := andi main_v38 main_v42
  let main_v44 : FVec F S10 .f32 := Host.absf main_arg11
  let main_cst_16 : FVec F S_ .f32 := constant S_ .f32 0x7F800000#32
  let main_v45 : FVec F S10 .f32 := broadcastInDim S10 ![] bcast_S_S10 main_cst_16
  let main_v46 : IVec S10 1 := cmpf .olt main_v44 main_v45
  let main_c_17 : IVec S_ 1 := constantI S_ 1 1#1
  let main_v47 : IVec S_ 1 := (fun x v => Host.reduce IntOp.andi x v reducesTo_S10_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x10 .f32) (main_arg11 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x1600000 32) (main_arg2 : IVec S50000 32) (main_arg3 : FVec F S1600000 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x1600000 : Shape := ⟨2, ![2, 1600000]⟩
abbrev S50000 : Shape := ⟨1, ![50000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1x128 : Shape := ⟨2, ![1, 128]⟩
abbrev S10000x128 : Shape := ⟨2, ![10000, 128]⟩
abbrev S1650000x128 : Shape := ⟨2, ![1650000, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 165
  | .vmem => 23
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S1600000, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S50000, .i32⟩
  | 17 => ⟨S1650000, .i32⟩
  | 18 => ⟨S1650000, .i32⟩
  | 19 => ⟨S_, .f32⟩
  | 20 => ⟨S50000, .f32⟩
  | 21 => ⟨S1650000, .f32⟩
  | 22 => ⟨S_, .f32⟩
  | 23 => ⟨S50000, .f32⟩
  | 24 => ⟨S1650000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S1650000, .f32⟩
  | 56 => ⟨S_, .f32⟩
  | 57 => ⟨S50000, .f32⟩
  | 58 => ⟨S1650000, .f32⟩
  | 59 => ⟨S_, .f32⟩
  | 60 => ⟨S50000, .f32⟩
  | 61 => ⟨S1650000x1, .i32⟩
  | 62 => ⟨S50000, .f32⟩
  | 63 => ⟨S_, .f32⟩
  | 64 => ⟨S50000, .f32⟩
  | 65 => ⟨S50000, .i1⟩
  | 66 => ⟨S_, .f32⟩
  | 67 => ⟨S50000, .f32⟩
  | 68 => ⟨S50000, .f32⟩
  | 69 => ⟨S_, .f32⟩
  | 70 => ⟨S_, .f32⟩
  | 71 => ⟨S50000, .f32⟩
  | 72 => ⟨S50000, .f32⟩
  | 73 => ⟨S_, .i32⟩
  | 74 => ⟨S1650000, .i32⟩
  | 75 => ⟨S1650000, .i1⟩
  | 76 => ⟨S_, .i32⟩
  | 77 => ⟨S1650000, .i32⟩
  | 78 => ⟨S1650000, .i32⟩
  | 79 => ⟨S1650000, .i32⟩
  | 80 => ⟨S1650000x1, .i32⟩
  | 81 => ⟨S1650000, .f32⟩
  | 82 => ⟨S1650000, .f32⟩
  | 83 => ⟨S_, .i32⟩
  | 84 => ⟨S1650000, .i32⟩
  | 85 => ⟨S1650000, .i1⟩
  | 86 => ⟨S_, .i32⟩
  | 87 => ⟨S1650000, .i32⟩
  | 88 => ⟨S1650000, .i32⟩
  | 89 => ⟨S1650000, .i32⟩
  | 90 => ⟨S1650000x1, .i32⟩
  | 91 => ⟨S1650000, .f32⟩
  | 92 => ⟨S1650000, .f32⟩
  | 93 => ⟨S_, .f32⟩
  | 94 => ⟨S128, .f32⟩
  | 95 => ⟨S1x128, .f32⟩
  | 96 => ⟨S50000x128, .f32⟩
  | 97 => ⟨S_, .i32⟩
  | 98 => ⟨S1650000, .i32⟩
  | 99 => ⟨S1650000, .i1⟩
  | 100 => ⟨S_, .i32⟩
  | 101 => ⟨S1650000, .i32⟩
  | 102 => ⟨S1650000, .i32⟩
  | 103 => ⟨S1650000, .i32⟩
  | 104 => ⟨S1650000x1, .i32⟩
  | 105 => ⟨S1650000x128, .f32⟩
  | 106 => ⟨S1650000x1, .f32⟩
  | 107 => ⟨S1650000x128, .f32⟩
  | 108 => ⟨S1650000x128, .f32⟩
  | 109 => ⟨S_, .f32⟩
  | 110 => ⟨S50000x128, .f32⟩
  | 111 => ⟨S1650000x1, .i32⟩
  | 112 => ⟨S50000x128, .f32⟩
  | 113 => ⟨S1x128, .f32⟩
  | 114 => ⟨S50000x128, .f32⟩
  | 115 => ⟨S_, .i32⟩
  | 116 => ⟨S1650000, .i32⟩
  | 117 => ⟨S1650000, .i1⟩
  | 118 => ⟨S_, .i32⟩
  | 119 => ⟨S1650000, .i32⟩
  | 120 => ⟨S1650000, .i32⟩
  | 121 => ⟨S1650000, .i32⟩
  | 122 => ⟨S1650000x1, .i32⟩
  | 123 => ⟨S1650000x128, .f32⟩
  | 124 => ⟨S1650000x1, .f32⟩
  | 125 => ⟨S1650000x128, .f32⟩
  | 126 => ⟨S1650000x128, .f32⟩
  | 127 => ⟨S_, .f32⟩
  | _ => ⟨S50000x128, .f32⟩

abbrev hbmTy0_1 (i : Nat) : BufTy := match i % 128 with
  | 0 => ⟨S50000x128, .f32⟩
  | 1 => ⟨S1650000x1, .i32⟩
  | 2 => ⟨S50000x128, .f32⟩
  | 3 => ⟨S1x128, .f32⟩
  | 4 => ⟨S50000x128, .f32⟩
  | 5 => ⟨S_, .i32⟩
  | 6 => ⟨S1650000, .i32⟩
  | 7 => ⟨S1650000, .i1⟩
  | 8 => ⟨S_, .i32⟩
  | 9 => ⟨S1650000, .i32⟩
  | 10 => ⟨S1650000, .i32⟩
  | 11 => ⟨S1650000, .i32⟩
  | 12 => ⟨S1650000x1, .i32⟩
  | 13 => ⟨S1650000x128, .f32⟩
  | 14 => ⟨S1650000x1, .f32⟩
  | 15 => ⟨S1650000x128, .f32⟩
  | 16 => ⟨S1650000x128, .f32⟩
  | 17 => ⟨S_, .f32⟩
  | 18 => ⟨S50000x128, .f32⟩
  | 19 => ⟨S1650000x1, .i32⟩
  | 20 => ⟨S50000x128, .f32⟩
  | 21 => ⟨S1x128, .f32⟩
  | 22 => ⟨S50000x128, .f32⟩
  | 23 => ⟨S50000x128, .f32⟩
  | 24 => ⟨S_, .f32⟩
  | 25 => ⟨S512x128, .f32⟩
  | 26 => ⟨S50000x1, .i32⟩
  | 27 => ⟨S512x128, .f32⟩
  | 28 => ⟨S_, .f32⟩
  | 29 => ⟨S50000, .f32⟩
  | 30 => ⟨S_, .f32⟩
  | 31 => ⟨S512, .f32⟩
  | 32 => ⟨S50000x1, .i32⟩
  | 33 => ⟨S512, .f32⟩
  | 34 => ⟨S512x1, .f32⟩
  | 35 => ⟨S1x10, .f32⟩
  | 36 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S1x128, .f32⟩
  | .local _ .vmem, ⟨3, _⟩ => ⟨S128x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S1x128, .f32⟩
  | .local _ .vmem, ⟨9, _⟩ => ⟨S128x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S128x128, .f32⟩
  | .local _ .vmem, ⟨16, _⟩ => ⟨S10000x128, .f32⟩
  | .local _ .vmem, ⟨17, _⟩ => ⟨S10000x128, .f32⟩
  | .local _ .vmem, ⟨18, _⟩ => ⟨S512x128, .f32⟩
  | .local _ .vmem, ⟨19, _⟩ => ⟨S512x1, .f32⟩
  | .local _ .vmem, ⟨20, _⟩ => ⟨S128x10, .f32⟩
  | .local _ .vmem, ⟨21, _⟩ => ⟨S1x10, .f32⟩
  | .local _ .vmem, ⟨22, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩
abbrev main_cst_11 : Ref sig .tc := ⟨.hbm, 69, rfl⟩
abbrev main_call1_v0 : Ref sig .tc := ⟨.hbm, 70, rfl⟩
abbrev main_call1_v1 : Ref sig .tc := ⟨.hbm, 71, rfl⟩
abbrev main_v42 : Ref sig .tc := ⟨.hbm, 72, rfl⟩
abbrev main_c_12 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_c_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_16 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_c_17 : Ref sig .tc := ⟨.hbm, 97, rfl⟩
abbrev main_v62 : Ref sig .tc := ⟨.hbm, 98, rfl⟩
abbrev main_v63 : Ref sig .tc := ⟨.hbm, 99, rfl⟩
abbrev main_c_18 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_19 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_c_20 : Ref sig .tc := ⟨.hbm, 115, rfl⟩
abbrev main_v77 : Ref sig .tc := ⟨.hbm, 116, rfl⟩
abbrev main_v78 : Ref sig .tc := ⟨.hbm, 117, rfl⟩
abbrev main_c_21 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_22 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_23 : Ref sig .tc := ⟨.hbm, 133, rfl⟩
abbrev main_v92 : Ref sig .tc := ⟨.hbm, 134, rfl⟩
abbrev main_v93 : Ref sig .tc := ⟨.hbm, 135, rfl⟩
abbrev main_c_24 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_cst_25 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_26 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_cst_27 : Ref sig .tc := ⟨.hbm, 156, rfl⟩
abbrev main_v111 : Ref sig .tc := ⟨.hbm, 157, rfl⟩
abbrev main_cst_28 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem1_0 : DmaSem sig := 19
abbrev cc3_sem2_0 : DmaSem sig := 20
abbrev cc3_sem3_0 : DmaSem sig := 21
abbrev cc3_sem4_0 : DmaSem sig := 22

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S512x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S512x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S_S128 : S_.BroadcastsInDim S128 (![] : Fin 0 → Fin S128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  shapeCasts_S512_S512x1 : S512.ShapeCasts S512x1
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x128 : S512x1.Broadcasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S10000x128_S128x128_S10000x128_1_0_0_1_n_n_wf : DotDims.WF S10000x128 S128x128 S10000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .f32 = 32 ∨ (Rect.block (s := S50000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .f32 = 32 ∨ (Rect.block (s := S50000x128) S10000x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1.size a ≤ S512x1.size a
  hwx3_1 : ∀ i : grid3.Coords, EltTy.bits .f32 = 32 ∨ (Rect.block (s := S512x1) S512x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x10.size a ≤ S128x10.size a
  hwx3_2 : ∀ i : grid3.Coords, EltTy.bits .f32 = 32 ∨ (Rect.block (s := S128x10) S128x10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x10.size a ≤ S1x10.size a
  hwx3_3 : ∀ i : grid3.Coords, EltTy.bits .f32 = 32 ∨ (Rect.block (s := S1x10) S1x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S512x10.size a ≤ S512x10.size a
  hwx3_4 : ∀ i : grid3.Coords, EltTy.bits .f32 = 32 ∨ (Rect.block (s := S512x10) S512x10.size (cc3_transform_4 i) (hinb3_4 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v60) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v61) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v74) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v75) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v76) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v89) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v90) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v91) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v110) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v115) S512x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg10) S128x10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v116) S1x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v117) S512x10.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S50000 : Shape := ⟨1, ![50000]⟩
abbrev S1600000 : Shape := ⟨1, ![1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x1600000 : Shape := ⟨2, ![1, 1600000]⟩
abbrev S1650000 : Shape := ⟨1, ![1650000]⟩
abbrev S_ : Shape := ⟨0, ![]⟩
abbrev S1650000x1 : Shape := ⟨2, ![1650000, 1]⟩
abbrev S1650000x128 : Shape := ⟨2, ![1650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 179
  | .vmem => 0
  | .smem => 0
  | _ => 0

abbrev hbmTy0_0 (i : Nat) : BufTy := match i % 128 with
  | 0 => ⟨S50000x128, .f32⟩
  | 1 => ⟨S2x1600000, .i32⟩
  | 2 => ⟨S50000, .i32⟩
  | 3 => ⟨S1600000, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S1x1600000, .i32⟩
  | 13 => ⟨S1600000, .i32⟩
  | 14 => ⟨S1x1600000, .i32⟩
  | 15 => ⟨S1600000, .i32⟩
  | 16 => ⟨S50000, .i32⟩
  | 17 => ⟨S1650000, .i32⟩
  | 18 => ⟨S1650000, .i32⟩
  | 19 => ⟨S_, .f32⟩
  | 20 => ⟨S50000, .f32⟩
  | 21 => ⟨S1650000, .f32⟩
  | 22 => ⟨S_, .f32⟩
  | 23 => ⟨S50000, .f32⟩
  | 24 => ⟨S1650000x1, .i32⟩
  | 25 => ⟨S50000, .f32⟩
  | 26 => ⟨S_, .f32⟩
  | 27 => ⟨S50000, .f32⟩
  | 28 => ⟨S50000, .i1⟩
  | 29 => ⟨S_, .f32⟩
  | 30 => ⟨S50000, .f32⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1650000, .i32⟩
  | 38 => ⟨S1650000, .i1⟩
  | 39 => ⟨S_, .i32⟩
  | 40 => ⟨S1650000, .i32⟩
  | 41 => ⟨S1650000, .i32⟩
  | 42 => ⟨S1650000, .i32⟩
  | 43 => ⟨S1650000x1, .i32⟩
  | 44 => ⟨S1650000, .f32⟩
  | 45 => ⟨S1650000, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000, .f32⟩
  | 55 => ⟨S1650000, .f32⟩
  | 56 => ⟨S_, .f32⟩
  | 57 => ⟨S50000, .f32⟩
  | 58 => ⟨S1650000, .f32⟩
  | 59 => ⟨S_, .f32⟩
  | 60 => ⟨S50000, .f32⟩
  | 61 => ⟨S1650000x1, .i32⟩
  | 62 => ⟨S50000, .f32⟩
  | 63 => ⟨S_, .f32⟩
  | 64 => ⟨S50000, .f32⟩
  | 65 => ⟨S50000, .i1⟩
  | 66 => ⟨S_, .f32⟩
  | 67 => ⟨S50000, .f32⟩
  | 68 => ⟨S50000, .f32⟩
  | 69 => ⟨S_, .f32⟩
  | 70 => ⟨S_, .f32⟩
  | 71 => ⟨S50000, .f32⟩
  | 72 => ⟨S50000, .f32⟩
  | 73 => ⟨S_, .i32⟩
  | 74 => ⟨S1650000, .i32⟩
  | 75 => ⟨S1650000, .i1⟩
  | 76 => ⟨S_, .i32⟩
  | 77 => ⟨S1650000, .i32⟩
  | 78 => ⟨S1650000, .i32⟩
  | 79 => ⟨S1650000, .i32⟩
  | 80 => ⟨S1650000x1, .i32⟩
  | 81 => ⟨S1650000, .f32⟩
  | 82 => ⟨S1650000, .f32⟩
  | 83 => ⟨S_, .i32⟩
  | 84 => ⟨S1650000, .i32⟩
  | 85 => ⟨S1650000, .i1⟩
  | 86 => ⟨S_, .i32⟩
  | 87 => ⟨S1650000, .i32⟩
  | 88 => ⟨S1650000, .i32⟩
  | 89 => ⟨S1650000, .i32⟩
  | 90 => ⟨S1650000x1, .i32⟩
  | 91 => ⟨S1650000, .f32⟩
  | 92 => ⟨S1650000, .f32⟩
  | 93 => ⟨S50000x128, .f32⟩
  | 94 => ⟨S_, .i32⟩
  | 95 => ⟨S1650000, .i32⟩
  | 96 => ⟨S1650000, .i1⟩
  | 97 => ⟨S_, .i32⟩
  | 98 => ⟨S1650000, .i32⟩
  | 99 => ⟨S1650000, .i32⟩
  | 100 => ⟨S1650000, .i32⟩
  | 101 => ⟨S1650000x1, .i32⟩
  | 102 => ⟨S1650000x128, .f32⟩
  | 103 => ⟨S1650000x1, .f32⟩
  | 104 => ⟨S1650000x128, .f32⟩
  | 105 => ⟨S1650000x128, .f32⟩
  | 106 => ⟨S_, .f32⟩
  | 107 => ⟨S50000x128, .f32⟩
  | 108 => ⟨S1650000x1, .i32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S_, .i32⟩
  | 118 => ⟨S1650000, .i32⟩
  | 119 => ⟨S1650000, .i1⟩
  | 120 => ⟨S_, .i32⟩
  | 121 => ⟨S1650000, .i32⟩
  | 122 => ⟨S1650000, .i32⟩
  | 123 => ⟨S1650000, .i32⟩
  | 124 => ⟨S1650000x1, .i32⟩
  | 125 => ⟨S1650000x128, .f32⟩
  | 126 => ⟨S1650000x1, .f32⟩
  | 127 => ⟨S1650000x128, .f32⟩
  | _ => ⟨S50000x128, .f32⟩

abbrev hbmTy0_1 (i : Nat) : BufTy := match i % 128 with
  | 0 => ⟨S1650000x128, .f32⟩
  | 1 => ⟨S_, .f32⟩
  | 2 => ⟨S50000x128, .f32⟩
  | 3 => ⟨S1650000x1, .i32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S50000x128, .f32⟩
  | 12 => ⟨S_, .i32⟩
  | 13 => ⟨S1650000, .i32⟩
  | 14 => ⟨S1650000, .i1⟩
  | 15 => ⟨S_, .i32⟩
  | 16 => ⟨S1650000, .i32⟩
  | 17 => ⟨S1650000, .i32⟩
  | 18 => ⟨S1650000, .i32⟩
  | 19 => ⟨S1650000x1, .i32⟩
  | 20 => ⟨S1650000x128, .f32⟩
  | 21 => ⟨S1650000x1, .f32⟩
  | 22 => ⟨S1650000x128, .f32⟩
  | 23 => ⟨S1650000x128, .f32⟩
  | 24 => ⟨S_, .f32⟩
  | 25 => ⟨S50000x128, .f32⟩
  | 26 => ⟨S1650000x1, .i32⟩
  | 27 => ⟨S50000x128, .f32⟩
  | 28 => ⟨S1x128, .f32⟩
  | 29 => ⟨S50000x128, .f32⟩
  | 30 => ⟨S50000x128, .f32⟩
  | 31 => ⟨S_, .f32⟩
  | 32 => ⟨S512x128, .f32⟩
  | 33 => ⟨S50000x1, .i32⟩
  | 34 => ⟨S512x128, .f32⟩
  | 35 => ⟨S_, .f32⟩
  | 36 => ⟨S50000, .f32⟩
  | 37 => ⟨S_, .f32⟩
  | 38 => ⟨S512, .f32⟩
  | 39 => ⟨S50000x1, .i32⟩
  | 40 => ⟨S512, .f32⟩
  | 41 => ⟨S_, .f32⟩
  | 42 => ⟨S512, .f32⟩
  | 43 => ⟨S512, .f32⟩
  | 44 => ⟨S512x1, .f32⟩
  | 45 => ⟨S512x128, .f32⟩
  | 46 => ⟨S512x128, .f32⟩
  | 47 => ⟨S512x10, .f32⟩
  | 48 => ⟨S1x10, .f32⟩
  | 49 => ⟨S512x10, .f32⟩
  | 50 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_v14 : Ref sig .tc := ⟨.hbm, 30, rfl⟩
abbrev main_v15 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v16 : Ref sig .tc := ⟨.hbm, 35, rfl⟩
abbrev main_c : Ref sig .tc := ⟨.hbm, 36, rfl⟩
abbrev main_v17 : Ref sig .tc := ⟨.hbm, 37, rfl⟩
abbrev main_v18 : Ref sig .tc := ⟨.hbm, 38, rfl⟩
abbrev main_c_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_7 : Ref sig .tc := ⟨.hbm, 56, rfl⟩
abbrev main_v33 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_9 : Ref sig .tc := ⟨.hbm, 63, rfl⟩
abbrev main_v38 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_v41 : Ref sig .tc := ⟨.hbm, 68, rfl⟩
abbrev main_cst_11 : Ref sig .tc := ⟨.hbm, 69, rfl⟩
abbrev main_call1_v0 : Ref sig .tc := ⟨.hbm, 70, rfl⟩
abbrev main_call1_v1 : Ref sig .tc := ⟨.hbm, 71, rfl⟩
abbrev main_v42 : Ref sig .tc := ⟨.hbm, 72, rfl⟩
abbrev main_c_12 : Ref sig .tc := ⟨.hbm, 73, rfl⟩
abbrev main_v43 : Ref sig .tc := ⟨.hbm, 74, rfl⟩
abbrev main_v44 : Ref sig .tc := ⟨.hbm, 75, rfl⟩
abbrev main_c_13 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_c_14 : Ref sig .tc := ⟨.hbm, 83, rfl⟩
abbrev main_v51 : Ref sig .tc := ⟨.hbm, 84, rfl⟩
abbrev main_v52 : Ref sig .tc := ⟨.hbm, 85, rfl⟩
abbrev main_c_15 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_16 : Ref sig .tc := ⟨.hbm, 94, rfl⟩
abbrev main_v60 : Ref sig .tc := ⟨.hbm, 95, rfl⟩
abbrev main_v61 : Ref sig .tc := ⟨.hbm, 96, rfl⟩
abbrev main_c_17 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_18 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call2_cst : Ref sig .tc := ⟨.hbm, 113, rfl⟩
abbrev main_call2_v0 : Ref sig .tc := ⟨.hbm, 114, rfl⟩
abbrev main_v76 : Ref sig .tc := ⟨.hbm, 115, rfl⟩
abbrev main_v77 : Ref sig .tc := ⟨.hbm, 116, rfl⟩
abbrev main_c_19 : Ref sig .tc := ⟨.hbm, 117, rfl⟩
abbrev main_v78 : Ref sig .tc := ⟨.hbm, 118, rfl⟩
abbrev main_v79 : Ref sig .tc := ⟨.hbm, 119, rfl⟩
abbrev main_c_20 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_21 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_call3_cst : Ref sig .tc := ⟨.hbm, 136, rfl⟩
abbrev main_call3_v0 : Ref sig .tc := ⟨.hbm, 137, rfl⟩
abbrev main_v94 : Ref sig .tc := ⟨.hbm, 138, rfl⟩
abbrev main_v95 : Ref sig .tc := ⟨.hbm, 139, rfl⟩
abbrev main_c_22 : Ref sig .tc := ⟨.hbm, 140, rfl⟩
abbrev main_v96 : Ref sig .tc := ⟨.hbm, 141, rfl⟩
abbrev main_v97 : Ref sig .tc := ⟨.hbm, 142, rfl⟩
abbrev main_c_23 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_cst_24 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_25 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_26 : Ref sig .tc := ⟨.hbm, 163, rfl⟩
abbrev main_v115 : Ref sig .tc := ⟨.hbm, 164, rfl⟩
abbrev main_cst_27 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_cst_28 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S50000 : S_.BroadcastsInDim S50000 (![] : Fin 0 → Fin S50000.rank)
  bcast_S1650000_S1650000x1_0 : S1650000.BroadcastsInDim S1650000x1 (![0] : Fin 1 → Fin S1650000x1.rank)
  bcast_S_S1650000 : S_.BroadcastsInDim S1650000 (![] : Fin 0 → Fin S1650000.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x128_S128x128_S50000x128_1_0_0_1_n_n_wf : DotDims.WF S50000x128 S128x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.KRun.lean ====
/-
  The idealized kernel program's run, with its result named.

  The program is twelve segments: host stretches and four pipelined regions. The contents of the TensorCore's
  buffers at each segment boundary are a fold from the launch memory: a host stretch applies its operations, a
  region replaces its arrays by what its write-backs leave. Every weakly fair execution terminates without a fault
  with every unscoped buffer at the last boundary's contents; read at the result buffer this names the result,
  and read at the argument buffers it says they end as launched.
-/
import proofs.«161608_j5875515261182_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- From any memory with zero counters every weakly fair execution of the program terminates, nothing faulting,
    with the result buffer at the last boundary's contents and the argument arrays as launched. -/
theorem run_value : θ_run defs (onTc (τ := τ) (main (F := F))) ⟨m, fun _ => 0, ρ⟩ (fun r => ∀ c : Dev nD,
      r.2.mem ((c.tc : Thread nD τ).loc main_v117) = W12 m ρ c (Proc.devRef .tc main_v117)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v117 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.KRun

end
-- ==== Proof.Spec.lean ====
/-
  The three whole-array functions this certificate is about, on the extended reals, entry by entry.

  * `proj x w`        : the product x·w of a [50000,128] array with a [128,128] matrix;
  * `projRelu a b w`  : max(a + b, 0)·w, the row vector b (kept as one row [1,128]) added to every row of a
                        before the positive part is taken;
  * `pool s c w b`    : (s / max(c, 1))·w + b for per-graph sums s [512,128], per-graph counts c kept as one
                        column [512,1], a [128,10] matrix and one row b [1,10].

  The float words 0 and 1 stay as the words the programs print, so that both sides carry the same constant.
  Every sum runs over the contracted coordinate k : Fin 128 in its natural order; on the extended reals a
  finite sum does not depend on the order, so no finiteness of the inputs is used anywhere.
-/
import Idealize.ShloMosaic.PureOps.Ideal
import Idealize.ShloMosaic.Lib.ValueIdx

noncomputable section

namespace Cert.Spec

open Idealize.ShloMosaic Idealize.ShloMosaic.ValueIdx

/-- Entry (p, q) of x·w. -/
def projAt (x : FVec Ideal ⟨2, ![50000, 128]⟩ .f32) (w : FVec Ideal ⟨2, ![128, 128]⟩ .f32) (p : Fin 50000) (q : Fin 128) : EReal :=
  ∑ k : Fin 128, x (ix2 p k) * w (ix2 k q)

/-- x·w as an array. -/
def proj (x : FVec Ideal ⟨2, ![50000, 128]⟩ .f32) (w : FVec Ideal ⟨2, ![128, 128]⟩ .f32) : FVec Ideal ⟨2, ![50000, 128]⟩ .f32 :=
  fun i => projAt x w (i 0) (i 1)

theorem proj_apply (x : FVec Ideal ⟨2, ![50000, 128]⟩ .f32) (w : FVec Ideal ⟨2, ![128, 128]⟩ .f32) (p : Fin 50000) (q : Fin 128) :
    proj x w (ix2 p q) = ∑ k : Fin 128, x (ix2 p k) * w (ix2 k q) := rfl

/-- Entry (p, q) of max(a + b, 0)·w, b one row. -/
def projReluAt (a : FVec Ideal ⟨2, ![50000, 128]⟩ .f32) (b : FVec Ideal ⟨2, ![1, 128]⟩ .f32) (w : FVec Ideal ⟨2, ![128, 128]⟩ .f32)
    (p : Fin 50000) (q : Fin 128) : EReal :=
  ∑ k : Fin 128, max (a (ix2 p k) + b (ix2 (0 : Fin 1) k)) (Ideal.ofBits .f32 0x00000000#32) * w (ix2 k q)

/-- max(a + b, 0)·w as an array. -/
def projRelu (a : FVec Ideal ⟨2, ![50000, 128]⟩ .f32) (b : FVec Ideal ⟨2, ![1, 128]⟩ .f32) (w : FVec Ideal ⟨2, ![128, 128]⟩ .f32) :
    FVec Ideal ⟨2, ![50000, 128]⟩ .f32 :=
  fun i => projReluAt a b w (i 0) (i 1)

theorem projRelu_apply (a : FVec Ideal ⟨2, ![50000, 128]⟩ .f32) (b : FVec Ideal ⟨2, ![1, 128]⟩ .f32) (w : FVec Ideal ⟨2, ![128, 128]⟩ .f32)
    (p : Fin 50000) (q : Fin 128) :
    projRelu a b w (ix2 p q)
      = ∑ k : Fin 128, max (a (ix2 p k) + b (ix2 (0 : Fin 1) k)) (Ideal.ofBits .f32 0x00000000#32) * w (ix2 k q) := rfl

/-- Entry (p, q) of (s / max(c, 1))·w + b, c one column, b one row. -/
def poolAt (s : FVec Ideal ⟨2, ![512, 128]⟩ .f32) (c : FVec Ideal ⟨2, ![512, 1]⟩ .f32) (w : FVec Ideal ⟨2, ![128, 10]⟩ .f32)
    (b : FVec Ideal ⟨2, ![1, 10]⟩ .f32) (p : Fin 512) (q : Fin 10) : EReal :=
  (∑ k : Fin 128, Ideal.div (s (ix2 p k)) (max (c (ix2 p (0 : Fin 1))) (Ideal.ofBits .f32 0x3F800000#32)) * w (ix2 k q))
    + b (ix2 (0 : Fin 1) q)

/-- (s / max(c, 1))·w + b as an array. -/
def pool (s : FVec Ideal ⟨2, ![512, 128]⟩ .f32) (c : FVec Ideal ⟨2, ![512, 1]⟩ .f32) (w : FVec Ideal ⟨2, ![128, 10]⟩ .f32)
    (b : FVec Ideal ⟨2, ![1, 10]⟩ .f32) : FVec Ideal ⟨2, ![512, 10]⟩ .f32 :=
  fun i => poolAt s c w b (i 0) (i 1)

theorem pool_apply (s : FVec Ideal ⟨2, ![512, 128]⟩ .f32) (c : FVec Ideal ⟨2, ![512, 1]⟩ .f32) (w : FVec Ideal ⟨2, ![128, 10]⟩ .f32)
    (b : FVec Ideal ⟨2, ![1, 10]⟩ .f32) (p : Fin 512) (q : Fin 10) :
    pool s c w b (ix2 p q)
      = (∑ k : Fin 128, Ideal.div (s (ix2 p k)) (max (c (ix2 p (0 : Fin 1))) (Ideal.ofBits .f32 0x3F800000#32)) * w (ix2 k q))
          + b (ix2 (0 : Fin 1) q) := rfl

end Cert.Spec

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.ProjRegion0.lean ====
/-
  Region 0: the row-tiled product x·W1.

  The grid has five points; point t holds rows t·10000 … t·10000 + 9999 of the [50000,128] operand, the whole
  [128,128] matrix, and writes the same rows of the result. What the body leaves at (p, q) of its block is the sum
  over k : Fin 128 of (block row p)(k) · W(k, q): the conversion to the narrow float type is the identity on the
  extended reals and the matrix unit accumulates into zero. So every point writes its rows of ONE whole-array
  function, the product of the two arrays, and the five blocks cover all 50000 rows: the array ends at the product.
-/
import proofs.«161608_j5875515261182_1_alg».proof.Proof.Gen.KernelIdeal.Frame
import proofs.«161608_j5875515261182_1_alg».proof.Proof.Spec
import proofs.«161608_j5875515261182_1_alg».proof.Proof.LibMatmul
import Idealize.ShloMosaic.Lib.Pipeline.Value
import Idealize.ShloMosaic.Lib.ValueIdx

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

theorem hz0 : (![0, 0] : Fin 2 → Nat) = fun _ => 0 := funext fun a => by fin_cases a <;> rfl

/-- The body's payload at (p, q): the sum over k of (row p of the operand block)(k) · W(k, q). -/
theorem pay0_apply (v0 : Vec Ideal S10000x128 .f32) (v2 : Vec Ideal S128x128 .f32) (p : Fin 10000) (q : Fin 128) :
    k0_pay1 (F := Ideal) v0 v2 (ix2 p q) = ∑ k : Fin 128, v0 (ix2 p k) * v2 (ix2 k q) := by
  unfold k0_pay1
  exact Cert.MatOps.matmul_plain_zero_apply none (truncf .bf16 v0 bitsLt_bf16_f32) (truncf .bf16 v2 bitsLt_bf16_f32) p q

variable (V : (c : Dev nD) → (b : Ref sig .tc) → Buf (Elt Ideal) ((c : Thread nD τ).loc b))

/-- The printed index maps over the five points: the operand's and the result's block index is (t, 0), the
    matrix's is (0, 0). -/
theorem idx_facts0 : ∀ t : Fin cfg0.N, win0_0.index t (0 : Fin 2) = t.val ∧ win0_0.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem lt_five0 (t : Fin cfg0.N) : t.val < 5 := lt_of_lt_of_eq t.isLt N_0

/-- The operand's block at point t, at (p, k), is the array at row t·10000 + p. -/
theorem iblk0_0_apply (c : Dev nD) (t : Fin cfg0.N) (p : Fin 10000) (k : Fin 128) (r : Fin 50000)
    (hr : r.val = t.val * 10000 + p.val) :
    (iblk0 (F := Ideal) V c 0 t : Vec Ideal S10000x128 .f32) (ix2 p k)
      = (V c main_arg0 : S50000x128.Idx → EReal) (ix2 r k) := by
  obtain ⟨e0, e1, -⟩ := idx_facts0 t
  unfold iblk0
  rw [View.read_apply]
  show (V c main_arg0 : S50000x128.Idx → EReal) _ = _
  congr 1
  funext a
  apply Fin.ext
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- The matrix's block at every point is the whole matrix. -/
theorem iblk0_2_apply (c : Dev nD) (t : Fin cfg0.N) (k q : Fin 128) :
    (iblk0 (F := Ideal) V c 2 t : Vec Ideal S128x128 .f32) (ix2 k q)
      = (V c main_arg4 : S128x128.Idx → EReal) (ix2 k q) := by
  obtain ⟨-, -, e0, e1, -⟩ := idx_facts0 t
  unfold iblk0
  rw [View.read_apply]
  show (V c main_arg4 : S128x128.Idx → EReal) _ = _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Entry (p, q) of the result's block at point t sits at row t·10000 + p of the result. -/
theorem emb0_3 (t : Fin cfg0.N) (p : Fin 10000) (q : Fin 128) (r : Fin 50000) (hr : r.val = t.val * 10000 + p.val) :
    (((cfg0.win 3).blk t).view.emb (ix2 p q) : S50000x128.Idx) = ix2 r q := by
  obtain ⟨-, -, -, -, e0, e1⟩ := idx_facts0 t
  funext a
  apply Fin.ext
  match a with
  | ⟨0, _⟩ => show win0_3.index t (0 : Fin 2) * 10000 + 1 * p.val = r.val; rw [e0, hr]; omega
  | ⟨1, _⟩ => show win0_3.index t (1 : Fin 2) * 128 + 1 * q.val = q.val; rw [e1]; omega

/-- What point t writes back is its rows of the product of the two arrays. -/
theorem flushed0_eq (c : Dev nD) (t : Fin cfg0.N) :
    (dat0 (F := Ideal) V c).flushed 3 t
      = ((cfg0.win 3).blk t).view.read (Elt Ideal) (Cert.Spec.proj (V c main_arg0) (V c main_arg4)) := by
  show (cfg0.win 3).cut (grid0.coords t) ((dat0 (F := Ideal) V c).after 3 t) = _
  rw [after0_3]
  unfold out0_3
  rw [View.canon_unit_zero hz0]
  simp only [View.ld_unit_zero (S := S10000x128) hz0, View.ld_unit_zero (S := S128x128) hz0]
  funext j
  obtain ⟨p, q, rfl⟩ : ∃ (p : Fin 10000) (q : Fin 128), j = ix2 p q := ⟨j 0, j 1, eq_ix2 j⟩
  have ht := lt_five0 t
  have hr : t.val * 10000 + p.val < 50000 := by have := p.isLt; omega
  show k0_pay1 (F := Ideal) (iblk0 V c 0 t) (iblk0 V c 2 t) (ix2 p q)
    = Cert.Spec.proj (V c main_arg0) (V c main_arg4) (((cfg0.win 3).blk t).view.emb (ix2 p q))
  rw [emb0_3 t p q ⟨_, hr⟩ rfl, Cert.Spec.proj_apply, pay0_apply]
  refine Finset.sum_congr rfl fun k _ => ?_
  rw [iblk0_0_apply V c t p k ⟨_, hr⟩ rfl, iblk0_2_apply V c t k q]

/-- An index of the result is in point t's block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v61).slice (win0_3.rect t)).set ↔ _
  rw [View.set_slice_whole, Rect.mem_set_unit]
  exact Iff.rfl

/-- Every row r of the result lies in the block of point r / 10000. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  refine ⟨⟨(i 0).val / 10000, by rw [show cfg0.N = 5 from N_0]; omega⟩, flush0_3 _, ?_⟩
  rw [mem_blk0]
  obtain ⟨-, -, -, -, e0, e1⟩ := idx_facts0 ⟨(i 0).val / 10000, by rw [show cfg0.N = 5 from N_0]; omega⟩
  intro a
  match a with
  | ⟨0, _⟩ =>
    show win0_3.index _ (0 : Fin 2) * 10000 ≤ (i 0).val ∧ (i 0).val < win0_3.index _ (0 : Fin 2) * 10000 + 10000
    rw [e0]; show (i 0).val / 10000 * 10000 ≤ (i 0).val ∧ (i 0).val < (i 0).val / 10000 * 10000 + 10000; omega
  | ⟨1, _⟩ =>
    show win0_3.index _ (1 : Fin 2) * 128 ≤ (i 1).val ∧ (i 1).val < win0_3.index _ (1 : Fin 2) * 128 + 128
    rw [e1]; omega

/-- After the pipeline the result array is the product of the two arrays the region found. -/
theorem final0 (c : Dev nD) :
    (Gen.dat0 (F := Ideal) V c).arrAt 3 cfg0.N = Cert.Spec.proj (V c main_arg0) (V c main_arg4) :=
  (dat0 (F := Ideal) V c).arrAt_eq_of_cover 3 (Cert.Spec.proj (V c main_arg0) (V c main_arg4))
    (fun t _ => flushed0_eq V c t) cover0

end Cert.KernelIdeal.Regions

end
-- ==== Proof.ProjRegion1.lean ====
/-
  Region 1: the row-tiled product max(a + b, 0)·W of the second layer.

  The grid has five points; point t holds rows t·10000 … t·10000 + 9999 of the [50000,128] operand a, the whole
  one-row array b [1,128], the whole [128,128] matrix, and writes the same rows of the result. What the body leaves
  at (p, q) of its block is the sum over k : Fin 128 of max(a-block(p, k) + b(0, k), 0) · W(k, q): the casts to the
  same shape are the identity, the one row is read at every row of the block, the conversion to the narrow float
  type is the identity on the extended reals and the matrix unit accumulates into zero. So every point writes its
  rows of ONE whole-array function of the three arrays, and the five blocks cover all 50000 rows.
-/
import proofs.«161608_j5875515261182_1_alg».proof.Proof.Gen.KernelIdeal.Frame
import proofs.«161608_j5875515261182_1_alg».proof.Proof.Spec
import proofs.«161608_j5875515261182_1_alg».proof.Proof.LibMatmul
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

theorem hz1 : (![0, 0] : Fin 2 → Nat) = fun _ => 0 := funext fun a => by fin_cases a <;> rfl

/-- The body's payload at (p, q): the sum over k of max(a-block(p, k) + b(0, k), 0) · W(k, q). -/
theorem pay1_apply (v0 : Vec Ideal S10000x128 .f32) (v2 : Vec Ideal S1x128 .f32) (v9 : Vec Ideal S128x128 .f32)
    (p : Fin 10000) (q : Fin 128) :
    k1_pay1 (F := Ideal) v0 v2 v9 (ix2 p q)
      = ∑ k : Fin 128, max (v0 (ix2 p k) + v2 (ix2 (0 : Fin 1) k)) (Ideal.ofBits .f32 0x00000000#32) * v9 (ix2 k q) := by
  unfold k1_pay1
  refine (Cert.MatOps.matmul_plain_zero_apply none _ _ p q).trans ?_
  refine Finset.sum_congr rfl fun k _ => ?_
  show max (shapeCast S10000x128 v0 shapeCasts_S10000x128_S10000x128 (ix2 p k)
      + broadcastTo S10000x128 (shapeCast S1x128 v2 shapeCasts_S1x128_S1x128) broadcasts_S1x128_S10000x128 (ix2 p k))
      (Ideal.ofBits .f32 0x00000000#32) * v9 (ix2 k q) = _
  rw [shapeCast_self, shapeCast_self, broadcastTo_1b_ab_apply]

variable (V : (c : Dev nD) → (b : Ref sig .tc) → Buf (Elt Ideal) ((c : Thread nD τ).loc b))

/-- The printed index maps over the five points: the operand's and the result's block index is (t, 0), the
    row's and the matrix's is (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt_five1 (t : Fin cfg1.N) : t.val < 5 := lt_of_lt_of_eq t.isLt N_1

/-- The operand's block at point t, at (p, k), is the array at row t·10000 + p. -/
theorem iblk1_0_apply (c : Dev nD) (t : Fin cfg1.N) (p : Fin 10000) (k : Fin 128) (r : Fin 50000)
    (hr : r.val = t.val * 10000 + p.val) :
    (iblk1 (F := Ideal) V c 0 t : Vec Ideal S10000x128 .f32) (ix2 p k)
      = (V c main_v74 : S50000x128.Idx → EReal) (ix2 r k) := by
  obtain ⟨e0, e1, -⟩ := idx_facts1 t
  unfold iblk1
  rw [View.read_apply]
  show (V c main_v74 : S50000x128.Idx → EReal) _ = _
  congr 1
  funext a
  apply Fin.ext
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- The row's block at every point is the whole one-row array. -/
theorem iblk1_1_apply (c : Dev nD) (t : Fin cfg1.N) (z : Fin 1) (k : Fin 128) :
    (iblk1 (F := Ideal) V c 1 t : Vec Ideal S1x128 .f32) (ix2 z k)
      = (V c main_v75 : S1x128.Idx → EReal) (ix2 z k) := by
  obtain ⟨-, -, e0, e1, -⟩ := idx_facts1 t
  unfold iblk1
  rw [View.read_apply]
  show (V c main_v75 : S1x128.Idx → EReal) _ = _
  congr 1
  funext a
  apply Fin.ext
  match a with
  | ⟨0, _⟩ => show win1_1.index t (0 : Fin 2) * 1 + 1 * z.val = z.val; rw [e0]; omega
  | ⟨1, _⟩ => show win1_1.index t (1 : Fin 2) * 128 + 1 * k.val = k.val; rw [e1]; omega

/-- The matrix's block at every point is the whole matrix. -/
theorem iblk1_2_apply (c : Dev nD) (t : Fin cfg1.N) (k q : Fin 128) :
    (iblk1 (F := Ideal) V c 2 t : Vec Ideal S128x128 .f32) (ix2 k q)
      = (V c main_arg6 : S128x128.Idx → EReal) (ix2 k q) := by
  obtain ⟨-, -, -, -, e0, e1, -⟩ := idx_facts1 t
  unfold iblk1
  rw [View.read_apply]
  show (V c main_arg6 : S128x128.Idx → EReal) _ = _
  congr 1
  funext a
  apply Fin.ext
  match a with
  | ⟨0, _⟩ => show win1_2.index t (0 : Fin 2) * 128 + 1 * k.val = k.val; rw [e0]; omega
  | ⟨1, _⟩ => show win1_2.index t (1 : Fin 2) * 128 + 1 * q.val = q.val; rw [e1]; omega

/-- Entry (p, q) of the result's block at point t sits at row t·10000 + p of the result. -/
theorem emb1_3 (t : Fin cfg1.N) (p : Fin 10000) (q : Fin 128) (r : Fin 50000) (hr : r.val = t.val * 10000 + p.val) :
    (((cfg1.win 3).blk t).view.emb (ix2 p q) : S50000x128.Idx) = ix2 r q := by
  obtain ⟨-, -, -, -, -, -, e0, e1⟩ := idx_facts1 t
  funext a
  apply Fin.ext
  match a with
  | ⟨0, _⟩ => show win1_3.index t (0 : Fin 2) * 10000 + 1 * p.val = r.val; rw [e0, hr]; omega
  | ⟨1, _⟩ => show win1_3.index t (1 : Fin 2) * 128 + 1 * q.val = q.val; rw [e1]; omega

/-- What point t writes back is its rows of max(a + b, 0)·W of the three arrays. -/
theorem flushed1_eq (c : Dev nD) (t : Fin cfg1.N) :
    (dat1 (F := Ideal) V c).flushed 3 t
      = ((cfg1.win 3).blk t).view.read (Elt Ideal) (Cert.Spec.projRelu (V c main_v74) (V c main_v75) (V c main_arg6)) := by
  show (cfg1.win 3).cut (grid1.coords t) ((dat1 (F := Ideal) V c).after 3 t) = _
  rw [after1_3]
  unfold out1_3
  rw [View.canon_unit_zero hz1]
  simp only [View.ld_unit_zero (S := S10000x128) hz1, View.ld_unit_zero (S := S1x128) hz1, View.ld_unit_zero (S := S128x128) hz1]
  funext j
  obtain ⟨p, q, rfl⟩ : ∃ (p : Fin 10000) (q : Fin 128), j = ix2 p q := ⟨j 0, j 1, eq_ix2 j⟩
  have ht := lt_five1 t
  have hr : t.val * 10000 + p.val < 50000 := by have := p.isLt; omega
  show k1_pay1 (F := Ideal) (iblk1 V c 0 t) (iblk1 V c 1 t) (iblk1 V c 2 t) (ix2 p q)
    = Cert.Spec.projRelu (V c main_v74) (V c main_v75) (V c main_arg6) (((cfg1.win 3).blk t).view.emb (ix2 p q))
  rw [emb1_3 t p q ⟨_, hr⟩ rfl, Cert.Spec.projRelu_apply, pay1_apply]
  refine Finset.sum_congr rfl fun k _ => ?_
  rw [iblk1_0_apply V c t p k ⟨_, hr⟩ rfl, iblk1_1_apply V c t 0 k, iblk1_2_apply V c t k q]

/-- An index of the result is in point t's block iff each coordinate is in the block's range on its axis. -/
theorem mem_blk1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v76).slice (win1_3.rect t)).set ↔ _
  rw [View.set_slice_whole, Rect.mem_set_unit]
  exact Iff.rfl

/-- Every row r of the result lies in the block of point r / 10000. -/
theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  refine ⟨⟨(i 0).val / 10000, by rw [show cfg1.N = 5 from N_1]; omega⟩, flush1_3 _, ?_⟩
  rw [mem_blk1]
  obtain ⟨-, -, -, -, -, -, e0, e1⟩ := idx_facts1 ⟨(i 0).val / 10000, by rw [show cfg1.N = 5 from N_1]; omega⟩
  intro a
  match a with
  | ⟨0, _⟩ =>
    show win1_3.index _ (0 : Fin 2) * 10000 ≤ (i 0).val ∧ (i 0).val < win1_3.index _ (0 : Fin 2) * 10000 + 10000
    rw [e0]; show (i 0).val / 10000 * 10000 ≤ (i 0).val ∧ (i 0).val < (i 0).val / 10000 * 10000 + 10000; omega
  | ⟨1, _⟩ =>
    show win1_3.index _ (1 : Fin 2) * 128 ≤ (i 1).val ∧ (i 1).val < win1_3.index _ (1 : Fin 2) * 128 + 128
    rw [e1]; omega

/-- After the pipeline the result array is max(a + b, 0)·W of the three arrays the region found. -/
theorem final1 (c : Dev nD) :
    (Gen.dat1 (F := Ideal) V c).arrAt 3 cfg1.N = Cert.Spec.projRelu (V c main_v74) (V c main_v75) (V c main_arg6) :=
  (dat1 (F := Ideal) V c).arrAt_eq_of_cover 3 (Cert.Spec.projRelu (V c main_v74) (V c main_v75) (V c main_arg6))
    (fun t _ => flushed1_eq V c t) cover1

end Cert.KernelIdeal.Regions

end
-- ==== Proof.ProjRegion2.lean ====
/-
  Region 2: the row-tiled product max(a + b, 0)·W of the third layer.

  The grid has five points; point t holds rows t·10000 … t·10000 + 9999 of the [50000,128] operand a, the whole
  one-row array b [1,128], the whole [128,128] matrix, and writes the same rows of the result. What the body leaves
  at (p, q) of its block is the sum over k : Fin 128 of max(a-block(p, k) + b(0, k), 0) · W(k, q): the casts to the
  same shape are the identity, the one row is read at every row of the block, the conversion to the narrow float
  type is the identity on the extended reals and the matrix unit accumulates into zero. So every point writes its
  rows of ONE whole-array function of the three arrays, and the five blocks cover all 50000 rows.
-/
import proofs.«161608_j5875515261182_1_alg».proof.Proof.Gen.KernelIdeal.Frame
import proofs.«161608_j5875515261182_1_alg».proof.Proof.Spec
import proofs.«161608_j5875515261182_1_alg».proof.Proof.LibMatmul
import Idealize.ShloMosaic.Lib.Pipeline.Value
import Idealize.ShloMosaic.Lib.ValueIdx
import Idealize.ShloMosaic.Lib.ValueLayout

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl

/-- The body's payload at (p, q): the sum over k of max(a-block(p, k) + b(0, k), 0) · W(k, q). -/
theorem pay2_apply (v0 : Vec Ideal S10000x128 .f32) (v2 : Vec Ideal S1x128 .f32) (v9 : Vec Ideal S128x128 .f32)
    (p : Fin 10000) (q : Fin 128) :
    k2_pay1 (F := Ideal) v0 v2 v9 (ix2 p q)
      = ∑ k : Fin 128, max (v0 (ix2 p k) + v2 (ix2 (0 : Fin 1) k)) (Ideal.ofBits .f32 0x00000000#32) * v9 (ix2 k q) := by
  unfold k2_pay1
  refine (Cert.MatOps.matmul_plain_zero_apply none _ _ p q).trans ?_
  refine Finset.sum_congr rfl fun k _ => ?_
  show max (shapeCast S10000x128 v0 shapeCasts_S10000x128_S10000x128 (ix2 p k)
      + broadcastTo S10000x128 (shapeCast S1x128 v2 shapeCasts_S1x128_S1x128) broadcasts_S1x128_S10000x128 (ix2 p k))
      (Ideal.ofBits .f32 0x00000000#32) * v9 (ix2 k q) = _
  rw [shapeCast_self, shapeCast_self, broadcastTo_1b_ab_apply]

variable (V : (c : Dev nD) → (b : Ref sig .tc) → Buf (Elt Ideal) ((c : Thread nD τ).loc b))

/-- The printed index maps over the five points: the operand's and the result's block index is (t, 0), the
    row's and the matrix's is (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem lt_five2 (t : Fin cfg2.N) : t.val < 5 := lt_of_lt_of_eq t.isLt N_2

/-- The operand's block at point t, at (p, k), is the array at row t·10000 + p. -/
theorem iblk2_0_apply (c : Dev nD) (t : Fin cfg2.N) (p : Fin 10000) (k : Fin 128) (r : Fin 50000)
    (hr : r.val = t.val * 10000 + p.val) :
    (iblk2 (F := Ideal) V c 0 t : Vec Ideal S10000x128 .f32) (ix2 p k)
      = (V c main_v89 : S50000x128.Idx → EReal) (ix2 r k) := by
  obtain ⟨e0, e1, -⟩ := idx_facts2 t
  unfold iblk2
  rw [View.read_apply]
  show (V c main_v89 : S50000x128.Idx → EReal) _ = _
  congr 1
  funext a
  apply Fin.ext
  match a with
  | ⟨0, _⟩ => show win2_0.index t (0 : Fin 2) * 10000 + 1 * p.val = r.val; rw [e0, hr]; omega
  | ⟨1, _⟩ => show win2_0.index t (1 : Fin 2) * 128 + 1 * k.val = k.val; rw [e1]; omega

/-- The row's block at every point is the whole one-row array. -/
theorem iblk2_1_apply (c : Dev nD) (t : Fin cfg2.N) (z : Fin 1) (k : Fin 128) :
    (iblk2 (F := Ideal) V c 1 t : Vec Ideal S1x128 .f32) (ix2 z k)
      = (V c main_v90 : S1x128.Idx → EReal) (ix2 z k) := by
  obtain ⟨-, -, e0, e1, -⟩ := idx_facts2 t
  unfold iblk2
  rw [View.read_apply]
  show (V c main_v90 : S1x128.Idx → EReal) _ = _
  congr 1
  funext a
  apply Fin.ext
  match a with
  | ⟨0, _⟩ => show win2_1.index t (0 : Fin 2) * 1 + 1 * z.val = z.val; rw [e0]; omega
  | ⟨1, _⟩ => show win2_1.index t (1 : Fin 2) * 128 + 1 * k.val = k.val; rw [e1]; omega

/-- The matrix's block at every point is the whole matrix. -/
theorem iblk2_2_apply (c : Dev nD) (t : Fin cfg2.N) (k q : Fin 128) :
    (iblk2 (F := Ideal) V c 2 t : Vec Ideal S128x128 .f32) (ix2 k q)
      = (V c main_arg8 : S128x128.Idx → EReal) (ix2 k q) := by
  obtain ⟨-, -, -, -, e0, e1, -⟩ := idx_facts2 t
  unfold iblk2
  rw [View.read_apply]
  show (V c main_arg8 : S128x128.Idx → EReal) _ = _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * q.val = q.val; rw [e1]; omega

/-- Entry (p, q) of the result's block at point t sits at row t·10000 + p of the result. -/
theorem emb2_3 (t : Fin cfg2.N) (p : Fin 10000) (q : Fin 128) (r : Fin 50000) (hr : r.val = t.val * 10000 + p.val) :
    (((cfg2.win 3).blk t).view.emb (ix2 p q) : S50000x128.Idx) = ix2 r q := by
  obtain ⟨-, -, -, -, -, -, e0, e1⟩ := idx_facts2 t
  funext a
  apply Fin.ext
  match a with
  | ⟨0, _⟩ => show win2_3.index t (0 : Fin 2) * 10000 + 1 * p.val = r.val; rw [e0, hr]; omega
  | ⟨1, _⟩ => show win2_3.index t (1 : Fin 2) * 128 + 1 * q.val = q.val; rw [e1]; omega

/-- What point t writes back is its rows of max(a + b, 0)·W of the three arrays. -/
theorem flushed2_eq (c : Dev nD) (t : Fin cfg2.N) :
    (dat2 (F := Ideal) V c).flushed 3 t
      = ((cfg2.win 3).blk t).view.read (Elt Ideal) (Cert.Spec.projRelu (V c main_v89) (V c main_v90) (V c main_arg8)) := by
  show (cfg2.win 3).cut (grid2.coords t) ((dat2 (F := Ideal) V c).after 3 t) = _
  rw [after2_3]
  unfold out2_3
  rw [View.canon_unit_zero hz2]
  simp only [View.ld_unit_zero (S := S10000x128) hz2, View.ld_unit_zero (S := S1x128) hz2, View.ld_unit_zero (S := S128x128) hz2]
  funext j
  obtain ⟨p, q, rfl⟩ : ∃ (p : Fin 10000) (q : Fin 128), j = ix2 p q := ⟨j 0, j 1, eq_ix2 j⟩
  have ht := lt_five2 t
  have hr : t.val * 10000 + p.val < 50000 := by have := p.isLt; omega
  show k2_pay1 (F := Ideal) (iblk2 V c 0 t) (iblk2 V c 1 t) (iblk2 V c 2 t) (ix2 p q)
    = Cert.Spec.projRelu (V c main_v89) (V c main_v90) (V c main_arg8) (((cfg2.win 3).blk t).view.emb (ix2 p q))
  rw [emb2_3 t p q ⟨_, hr⟩ rfl, Cert.Spec.projRelu_apply, pay2_apply]
  refine Finset.sum_congr rfl fun k _ => ?_
  rw [iblk2_0_apply V c t p k ⟨_, hr⟩ rfl, iblk2_1_apply V c t 0 k, iblk2_2_apply V c t k q]

/-- An index of the result is in point t's block iff each coordinate is in the block's range on its axis. -/
theorem mem_blk2 (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v91).slice (win2_3.rect t)).set ↔ _
  rw [View.set_slice_whole, Rect.mem_set_unit]
  exact Iff.rfl

/-- Every row r of the result lies in the block of point r / 10000. -/
theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  refine ⟨⟨(i 0).val / 10000, by rw [show cfg2.N = 5 from N_2]; omega⟩, flush2_3 _, ?_⟩
  rw [mem_blk2]
  obtain ⟨-, -, -, -, -, -, e0, e1⟩ := idx_facts2 ⟨(i 0).val / 10000, by rw [show cfg2.N = 5 from N_2]; omega⟩
  intro a
  match a with
  | ⟨0, _⟩ =>
    show win2_3.index _ (0 : Fin 2) * 10000 ≤ (i 0).val ∧ (i 0).val < win2_3.index _ (0 : Fin 2) * 10000 + 10000
    rw [e0]; show (i 0).val / 10000 * 10000 ≤ (i 0).val ∧ (i 0).val < (i 0).val / 10000 * 10000 + 10000; omega
  | ⟨1, _⟩ =>
    show win2_3.index _ (1 : Fin 2) * 128 ≤ (i 1).val ∧ (i 1).val < win2_3.index _ (1 : Fin 2) * 128 + 128
    rw [e1]; omega

/-- After the pipeline the result array is max(a + b, 0)·W of the three arrays the region found. -/
theorem final2 (c : Dev nD) :
    (Gen.dat2 (F := Ideal) V c).arrAt 3 cfg2.N = Cert.Spec.projRelu (V c main_v89) (V c main_v90) (V c main_arg8) :=
  (dat2 (F := Ideal) V c).arrAt_eq_of_cover 3 (Cert.Spec.projRelu (V c main_v89) (V c main_v90) (V c main_arg8))
    (fun t _ => flushed2_eq V c t) cover2

end Cert.KernelIdeal.Regions

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.PoolRegion.lean ====
/-
  The pooling region's output array is the specification's function of the arrays it stages.

  The region has ONE grid point, and every window's index map is constantly (0, 0), so each window's block is its whole
  array: a block's coordinate on an axis is index × size + 1 × the coordinate inside the block, which is the coordinate
  itself when the index is 0. The body's result at (p, q) is

      (∑ k : Fin 128, (s(p, k) / max(c(p, 0), 1)) · w(k, q)) + b(0, q)

  for the per-graph sums s [512,128], the per-graph counts c kept as a column [512,1], the matrix w [128,10] and the bias
  kept as one row b [1,10]: the clamped count column is copied along each row before the division, the rounding to the
  narrower float type is the identity on the extended reals, the matrix unit's product into the zero accumulator is the sum
  over the contracted coordinate, and the bias row is copied to every row before the addition. The one block covers the
  whole output array, so the array after the region is that function everywhere.
-/
import proofs.«161608_j5875515261182_1_alg».proof.Proof.Gen.KernelIdeal.Frame
import proofs.«161608_j5875515261182_1_alg».proof.Proof.Spec
import proofs.«161608_j5875515261182_1_alg».proof.Proof.LibMatmul
import proofs.«161608_j5875515261182_1_alg».proof.Proof.LibKeepdims
import Idealize.ShloMosaic.Lib.ValueLayout
import Idealize.ShloMosaic.Lib.Pipeline.Value

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

/-- The matrix unit's product of a [512,128] by a [128,10] operand into the zero accumulator, at (p, q). -/
theorem head_product_apply (l : FVec Ideal S512x128 .bf16) (r : FVec Ideal S128x10 .bf16) (p : Fin 512) (q : Fin 10) :
    matmul (F := Ideal) dot_S512x128_S128x10_S512x10_1_0_0_1_n_n none l r (constant (F := Ideal) S512x10 .f32 0x00000000#32) (ix2 p q)
      = ∑ k : Fin 128, l (ix2 p k) * r (ix2 k q) :=
  Cert.MatOps.matmul_plain_zero_apply (M := 512) (K := 128) (N := 10) none l r p q

/-- The body's result at (p, q): the sums divided by the clamped count of row p, times the matrix, plus the bias row. -/
theorem pool_payload_apply (v0 : Vec Ideal S512x128 .f32) (v2 : Vec Ideal S512x1 .f32) (v9 : Vec Ideal S128x10 .f32)
    (v12 : Vec Ideal S1x10 .f32) (p : Fin 512) (q : Fin 10) :
    Gen.k3_pay1 (F := Ideal) v0 v2 v9 v12 (ix2 p q)
      = (∑ k : Fin 128, Ideal.div (v0 (ix2 p k)) (max (v2 (ix2 p (0 : Fin 1))) (Ideal.ofBits .f32 0x3F800000#32)) * v9 (ix2 k q))
          + v12 (ix2 (0 : Fin 1) q) := by
  unfold Gen.k3_pay1
  rw [addf_apply, head_product_apply, broadcastTo_1b_ab_apply, shapeCast_self v12]
  refine congrArg (· + v12 (ix2 (0 : Fin 1) q)) (Finset.sum_congr rfl fun k _ => ?_)
  rw [truncf_apply, truncf_apply, divf_apply, shapeCast_self v0, Keepdims.broadcastTo_a1_ab_apply _ _ p k (0 : Fin 1),
    maximumf_apply, shapeCast_self v2, broadcast_apply]
  rfl

/-- The body's result is the specification's function of the four arrays it loads. -/
theorem pool_payload_eq (v0 : Vec Ideal S512x128 .f32) (v2 : Vec Ideal S512x1 .f32) (v9 : Vec Ideal S128x10 .f32)
    (v12 : Vec Ideal S1x10 .f32) : Gen.k3_pay1 (F := Ideal) v0 v2 v9 v12 = Cert.Spec.pool v0 v2 v9 v12 := by
  funext j
  obtain ⟨p, q, rfl⟩ : ∃ (p : Fin 512) (q : Fin 10), j = ix2 p q := ⟨j 0, j 1, eq_ix2 j⟩
  rw [pool_payload_apply, Cert.Spec.pool_apply]

section Array

variable (V : (c : Dev nD) → (b : Ref sig .tc) → Buf (Elt Ideal) ((c : Thread nD τ).loc b))

theorem zero_offsets : (![0, 0] : Fin 2 → Nat) = fun _ => 0 := funext fun a => by fin_cases a <;> rfl

/-- The region has one grid point and every window's index map is constantly (0, 0): decided over the grid. -/
theorem index_zero : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Window 0's block is the whole array of per-graph sums: a block's coordinate is index × size + 1 × the coordinate
    inside the block, and the index is 0. -/
theorem block_sums (c : Dev nD) (t : Fin cfg3.N) :
    (Gen.iblk3 V c 0 t : S512x128.Idx → Elt Ideal .f32) = V c main_v110 := by
  obtain ⟨e0, e1, -⟩ := index_zero t
  funext y
  show V c main_v110 (((cfg3.win 0).blk t).view.emb y) = V c main_v110 y
  refine congrArg (V c main_v110) (funext fun a => Fin.ext ?_)
  match a with
  | ⟨0, _⟩ => show win3_0.index t (0 : Fin 2) * 512 + 1 * (y 0).val = (y 0).val; omega
  | ⟨1, _⟩ => show win3_0.index t (1 : Fin 2) * 128 + 1 * (y 1).val = (y 1).val; omega

/-- Window 1's block is the whole column of per-graph counts. -/
theorem block_counts (c : Dev nD) (t : Fin cfg3.N) :
    (Gen.iblk3 V c 1 t : S512x1.Idx → Elt Ideal .f32) = V c main_v115 := by
  obtain ⟨-, -, e0, e1, -⟩ := index_zero t
  funext y
  show V c main_v115 (((cfg3.win 1).blk t).view.emb y) = V c main_v115 y
  refine congrArg (V c main_v115) (funext fun a => Fin.ext ?_)
  match a with
  | ⟨0, _⟩ => show win3_1.index t (0 : Fin 2) * 512 + 1 * (y 0).val = (y 0).val; omega
  | ⟨1, _⟩ => show win3_1.index t (1 : Fin 2) * 1 + 1 * (y 1).val = (y 1).val; omega

/-- Window 2's block is the whole matrix. -/
theorem block_matrix (c : Dev nD) (t : Fin cfg3.N) :
    (Gen.iblk3 V c 2 t : S128x10.Idx → Elt Ideal .f32) = V c main_arg10 := by
  obtain ⟨-, -, -, -, e0, e1, -⟩ := index_zero t
  funext y
  show V c main_arg10 (((cfg3.win 2).blk t).view.emb y) = V c main_arg10 y
  refine congrArg (V c main_arg10) (funext fun a => Fin.ext ?_)
  match a with
  | ⟨0, _⟩ => show win3_2.index t (0 : Fin 2) * 128 + 1 * (y 0).val = (y 0).val; omega
  | ⟨1, _⟩ => show win3_2.index t (1 : Fin 2) * 10 + 1 * (y 1).val = (y 1).val; omega

/-- Window 3's block is the whole bias row. -/
theorem block_bias (c : Dev nD) (t : Fin cfg3.N) :
    (Gen.iblk3 V c 3 t : S1x10.Idx → Elt Ideal .f32) = V c main_v116 := by
  obtain ⟨-, -, -, -, -, -, e0, e1, -⟩ := index_zero t
  funext y
  show V c main_v116 (((cfg3.win 3).blk t).view.emb y) = V c main_v116 y
  refine congrArg (V c main_v116) (funext fun a => Fin.ext ?_)
  match a with
  | ⟨0, _⟩ => show win3_3.index t (0 : Fin 2) * 1 + 1 * (y 0).val = (y 0).val; omega
  | ⟨1, _⟩ => show win3_3.index t (1 : Fin 2) * 10 + 1 * (y 1).val = (y 1).val; omega

/-- What the one grid point writes back is the (whole-array) block of the specification's function of the four arrays
    as the region finds them. -/
theorem flushed_eq (c : Dev nD) (t : Fin cfg3.N) :
    (Gen.dat3 (F := Ideal) V c).flushed 4 t
      = ((cfg3.win 4).blk t).view.read (Elt Ideal)
          (Cert.Spec.pool (V c main_v110) (V c main_v115) (V c main_arg10) (V c main_v116)) := by
  show (cfg3.win 4).cut (grid3.coords t) ((Gen.dat3 V c).after 4 t) = _
  rw [Gen.after3_4]
  unfold Gen.out3_4
  rw [View.canon_unit_zero zero_offsets]
  simp only [View.ld_unit_zero (S := S512x128) zero_offsets, View.ld_unit_zero (S := S512x1) zero_offsets,
    View.ld_unit_zero (S := S128x10) zero_offsets, View.ld_unit_zero (S := S1x10) zero_offsets]
  rw [block_sums V c t, block_counts V c t, block_matrix V c t, block_bias V c t]
  obtain ⟨-, -, -, -, -, -, -, -, e0, e1⟩ := index_zero t
  funext y
  refine (congrFun (pool_payload_eq (V c main_v110) (V c main_v115) (V c main_arg10) (V c main_v116)) y).trans ?_
  show Cert.Spec.pool (V c main_v110) (V c main_v115) (V c main_arg10) (V c main_v116) y
    = Cert.Spec.pool (V c main_v110) (V c main_v115) (V c main_arg10) (V c main_v116) (((cfg3.win 4).blk t).view.emb y)
  refine congrArg (Cert.Spec.pool (V c main_v110) (V c main_v115) (V c main_arg10) (V c main_v116)) (funext fun a => Fin.ext ?_)
  match a with
  | ⟨0, _⟩ => show (y 0).val = win3_4.index t (0 : Fin 2) * 512 + 1 * (y 0).val; omega
  | ⟨1, _⟩ => show (y 1).val = win3_4.index t (1 : Fin 2) * 10 + 1 * (y 1).val; omega

/-- An index of the output array is in the point's block iff each coordinate is in the block's range on its axis. -/
theorem mem_block (t : Fin cfg3.N) (i : S512x10.Idx) :
    i ∈ ((cfg3.win 4).blk t).view.set
      ↔ ∀ a : Fin 2, win3_4.index t a * S512x10.size a ≤ (i a).val
          ∧ (i a).val < win3_4.index t a * S512x10.size a + S512x10.size a := by
  show i ∈ ((View.whole main_v117).slice (win3_4.rect t)).set ↔ _
  rw [View.set_slice_whole, Rect.mem_set_unit]
  exact Iff.rfl

/-- The one block is the whole output array, so every index is covered. -/
theorem cover (i : S512x10.Idx) :
    ∃ t : Fin cfg3.N, (cfg3.win 4).flush t = true ∧ i ∈ ((cfg3.win 4).blk t).view.set := by
  refine ⟨t3_0, flush3_4 t3_0, ?_⟩
  rw [mem_block]
  obtain ⟨-, -, -, -, -, -, -, -, e0, e1⟩ := index_zero t3_0
  have h0 : (i 0).val < 512 := (i 0).isLt
  have h1 : (i 1).val < 10 := (i 1).isLt
  intro a
  match a with
  | ⟨0, _⟩ =>
    show win3_4.index t3_0 (0 : Fin 2) * 512 ≤ (i 0).val ∧ (i 0).val < win3_4.index t3_0 (0 : Fin 2) * 512 + 512
    omega
  | ⟨1, _⟩ =>
    show win3_4.index t3_0 (1 : Fin 2) * 10 ≤ (i 1).val ∧ (i 1).val < win3_4.index t3_0 (1 : Fin 2) * 10 + 10
    omega

/-- After region 3 the output array is the specification's function of the four arrays as the region finds them. -/
theorem final3 (c : Dev nD) :
    (Gen.dat3 (F := Ideal) V c).arrAt 4 cfg3.N
      = Cert.Spec.pool (V c main_v110) (V c main_v115) (V c main_arg10) (V c main_v116) :=
  (Gen.dat3 (F := Ideal) V c).arrAt_eq_of_cover 4
    (Cert.Spec.pool (V c main_v110) (V c main_v115) (V c main_arg10) (V c main_v116))
    (fun t _ => flushed_eq V c t) cover

end Array

end Cert.KernelIdeal.Regions

end
-- ==== Proof.RefIsSpec.lean ====
/-
  The reference's four dense stages are the specification's three functions, entry by entry, on the extended reals.

  Each stage is a product over the contracted coordinate k : Fin 128. The reference's generated reading gives the two
  operand indices at output (p, q) and coordinate k as functions matched on the axis; they are (p, k) and (k, q).
  A bias vector is first made one row and then copied to every row, so at (p, k) it reads the vector at k, which is
  also what the row given by a reshape of the same vector reads at (0, k). The positive part is the maximum against a
  zero constant copied to every entry. In the head, the clamped count max(c, 1) is made a column and copied along each
  row, so at (p, k) it reads the clamped count of graph p, which is what the column given by a reshape of the counts
  reads at (p, 0).
-/
import proofs.«161608_j5875515261182_1_alg».proof.Proof.Gen.ReferenceIdeal.Read
import proofs.«161608_j5875515261182_1_alg».proof.Proof.Spec
import proofs.«161608_j5875515261182_1_alg».proof.Proof.LibMatmul
import proofs.«161608_j5875515261182_1_alg».proof.Proof.LibKeepdims
import Idealize.ShloMosaic.Lib.ValueLayout

noncomputable section

namespace Cert.RefSpec

open Cert.ReferenceIdeal Cert.ReferenceIdeal.Gen Cert.ReferenceIdeal.Read Idealize.ShloMosaic Idealize.ShloMosaic.ValueIdx Idealize.ShloMosaic.StableHlo

/-- The left operand's index of the first product at output (p, q) and contraction coordinate k is (p, k). -/
theorem lidx_v59 (p : Fin 50000) (q : Fin 128) (k : Fin 128) : Read.lidx_main_v59 (ix2 p q) k = ix2 p k :=
  funext fun a => Fin.ext (by match a with | ⟨0, _⟩ => rfl | ⟨1, _⟩ => rfl)

/-- The right operand's index of the first product at output (p, q) and contraction coordinate k is (k, q). -/
theorem ridx_v59 (p : Fin 50000) (q : Fin 128) (k : Fin 128) : Read.ridx_main_v59 (ix2 p q) k = ix2 k q :=
  funext fun a => Fin.ext (by match a with | ⟨0, _⟩ => rfl | ⟨1, _⟩ => rfl)

/-- The reference's first product is x·w, entry by entry. -/
theorem ref_v59 (x0 : (⟨S50000x128, .f32⟩ : BufTy).Contents (Elt Ideal)) (x4 : (⟨S128x128, .f32⟩ : BufTy).Contents (Elt Ideal)) :
    Read.val_main_v59 (F := Ideal) x0 x4 = Cert.Spec.proj x0 x4 := by
  funext i
  obtain ⟨p, q, rfl⟩ : ∃ (p : Fin 50000) (q : Fin 128), i = ix2 p q := ⟨i 0, i 1, eq_ix2 i⟩
  rw [Read.val_main_v59_apply, Cert.Spec.proj_apply]
  refine Finset.sum_congr rfl fun k _ => ?_
  rw [lidx_v59, ridx_v59]

/-- Left and right operand indices of the second product at output (p, q), contraction coordinate k. -/
theorem lidx_v77 (p : Fin 50000) (q : Fin 128) (k : Fin 128) : Read.lidx_main_v77 (ix2 p q) k = ix2 p k :=
  funext fun a => Fin.ext (by match a with | ⟨0, _⟩ => rfl | ⟨1, _⟩ => rfl)

theorem ridx_v77 (p : Fin 50000) (q : Fin 128) (k : Fin 128) : Read.ridx_main_v77 (ix2 p q) k = ix2 k q :=
  funext fun a => Fin.ext (by match a with | ⟨0, _⟩ => rfl | ⟨1, _⟩ => rfl)

/-- The bias vector broadcast first to one row and then to every row reads, at (p, k), the vector at k. -/
theorem bias_v74 (x5 : (⟨S128, .f32⟩ : BufTy).Contents (Elt Ideal)) (p : Fin 50000) (k : Fin 128) :
    Read.val_main_v74 (F := Ideal) x5 (ix2 p k) = x5 (ix1 k) := by
  rw [Read.val_main_v74_apply, Read.val_main_v73_apply]
  exact congrArg x5 (funext fun a => Fin.ext (by match a with | ⟨0, _⟩ => rfl))

/-- The reference's second product is max(a + b, 0)·w with a the first aggregation and b the bias kept as one row. -/
theorem ref_v77 (x0 : (⟨S50000x128, .f32⟩ : BufTy).Contents (Elt Ideal)) (x1 : (⟨S2x1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (hc : (⟨1, ![128]⟩ : Shape).ShapeCasts ⟨2, ![1, 128]⟩) :
    Read.val_main_v77 (F := Ideal) x0 x1 x3 x4 x5 x6
      = Cert.Spec.projRelu (Read.val_main_v72 (F := Ideal) x0 x1 x3 x4) (shapeCast ⟨2, ![1, 128]⟩ x5 hc) x6 := by
  funext i
  obtain ⟨p, q, rfl⟩ : ∃ (p : Fin 50000) (q : Fin 128), i = ix2 p q := ⟨i 0, i 1, eq_ix2 i⟩
  rw [Read.val_main_v77_apply, Cert.Spec.projRelu_apply]
  refine Finset.sum_congr rfl fun k _ => ?_
  rw [lidx_v77, ridx_v77, Read.val_main_v76_apply, Read.val_main_v75_apply, bias_v74, Read.val_main_call2_v0_apply,
    Read.val_main_call2_cst_apply, shapeCast_a_1a_apply]
  rfl

/-- Left and right operand indices of the third product at output (p, q), contraction coordinate k. -/
theorem lidx_v95 (p : Fin 50000) (q : Fin 128) (k : Fin 128) : Read.lidx_main_v95 (ix2 p q) k = ix2 p k :=
  funext fun a => Fin.ext (by match a with | ⟨0, _⟩ => rfl | ⟨1, _⟩ => rfl)

theorem ridx_v95 (p : Fin 50000) (q : Fin 128) (k : Fin 128) : Read.ridx_main_v95 (ix2 p q) k = ix2 k q :=
  funext fun a => Fin.ext (by match a with | ⟨0, _⟩ => rfl | ⟨1, _⟩ => rfl)

/-- The second bias vector broadcast to one row and then to every row reads, at (p, k), the vector at k. -/
theorem bias_v92 (x7 : (⟨S128, .f32⟩ : BufTy).Contents (Elt Ideal)) (p : Fin 50000) (k : Fin 128) :
    Read.val_main_v92 (F := Ideal) x7 (ix2 p k) = x7 (ix1 k) := by
  rw [Read.val_main_v92_apply, Read.val_main_v91_apply]
  exact congrArg x7 (funext fun a => Fin.ext (by match a with | ⟨0, _⟩ => rfl))

/-- The reference's third product is max(a + b, 0)·w with a the second aggregation and b the second bias kept as one row. -/
theorem ref_v95 (x0 : (⟨S50000x128, .f32⟩ : BufTy).Contents (Elt Ideal)) (x1 : (⟨S2x1600000, .i32⟩ : BufTy).Contents (Elt Ideal))
    (x3 : (⟨S1600000, .f32⟩ : BufTy).Contents (Elt Ideal)) (x4 : (⟨S128x128, .f32⟩ : BufTy).Contents (Elt Ideal))
    (x5 : (⟨S128, .f32⟩ : BufTy).Contents (Elt Ideal)) (x6 : (⟨S128x128, .f32⟩ : BufTy).Contents (Elt Ideal))
    (x7 : (⟨S128, .f32⟩ : BufTy).Contents (Elt Ideal)) (x8 : (⟨S128x128, .f32⟩ : BufTy).Contents (Elt Ideal))
    (hc : (⟨1, ![128]⟩ : Shape).ShapeCasts ⟨2, ![1, 128]⟩) :
    Read.val_main_v95 (F := Ideal) x0 x1 x3 x4 x5 x6 x7 x8
      = Cert.Spec.projRelu (Read.val_main_v90 (F := Ideal) x0 x1 x3 x4 x5 x6) (shapeCast ⟨2, ![1, 128]⟩ x7 hc) x8 := by
  funext i
  obtain ⟨p, q, rfl⟩ : ∃ (p : Fin 50000) (q : Fin 128), i = ix2 p q := ⟨i 0, i 1, eq_ix2 i⟩
  rw [Read.val_main_v95_apply, Cert.Spec.projRelu_apply]
  refine Finset.sum_congr rfl fun k _ => ?_
  rw [lidx_v95, ridx_v95, Read.val_main_v94_apply, Read.val_main_v93_apply, bias_v92, Read.val_main_call3_v0_apply,
    Read.val_main_call3_cst_apply, shapeCast_a_1a_apply]
  rfl

/-- Left and right operand indices of the head's product at output (p, q), contraction coordinate k. -/
theorem lidx_v124 (p : Fin 512) (q : Fin 10) (k : Fin 128) : Read.lidx_main_v124 (ix2 p q) k = ix2 p k :=
  funext fun a => Fin.ext (by match a with | ⟨0, _⟩ => rfl | ⟨1, _⟩ => rfl)

theorem ridx_v124 (p : Fin 512) (q : Fin 10) (k : Fin 128) : Read.ridx_main_v124 (ix2 p q) k = ix2 k q :=
  funext fun a => Fin.ext (by match a with | ⟨0, _⟩ => rfl | ⟨1, _⟩ => rfl)

/-- The clamped count max(c, 1), made a column and copied along each row, reads at (p, k) the clamped count of graph p. -/
theorem count_v122 (x2 : (⟨S50000, .i32⟩ : BufTy).Contents (Elt Ideal)) (p : Fin 512) (k : Fin 128) :
    Read.val_main_v122 (F := Ideal) x2 (ix2 p k)
      = max (Read.val_main_v118 (F := Ideal) x2 (ix1 p)) (Ideal.ofBits .f32 0x3F800000#32) := by
  rw [Read.val_main_v122_apply, Read.val_main_v121_apply]
  have e : Read.idx_main_v121 (Read.idx_main_v122 (ix2 p k)) = ix1 p :=
    funext fun a => Fin.ext (by match a with | ⟨0, _⟩ => rfl)
  rw [e, Read.val_main_v120_apply, Read.val_main_v119_apply, Read.val_main_cst_28_apply]
  rfl

/-- The head's bias vector broadcast to one row and then to every row reads, at (p, q), the vector at q. -/
theorem bias_v126 (x11 : (⟨S10, .f32⟩ : BufTy).Contents (Elt Ideal)) (p : Fin 512) (q : Fin 10) :
    Read.val_main_v126 (F := Ideal) x11 (ix2 p q) = x11 (ix1 q) := by
  rw [Read.val_main_v126_apply, Read.val_main_v125_apply]
  exact congrArg x11 (funext fun a => Fin.ext (by match a with | ⟨0, _⟩ => rfl))

/-- The reference's head is (s / max(c, 1))·w + b with s the per-graph sums, c the per-graph counts kept as a column,
    b the bias kept as one row. -/
theorem ref_v127 (x0 : (⟨S50000x128, .f32⟩ : BufTy).Contents (Elt Ideal)) (x1 : (⟨S2x1600000, .i32⟩ : BufTy).Contents (Elt Ideal))
    (x2 : (⟨S50000, .i32⟩ : BufTy).Contents (Elt Ideal)) (x3 : (⟨S1600000, .f32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (x10 : (⟨S128x10, .f32⟩ : BufTy).Contents (Elt Ideal)) (x11 : (⟨S10, .f32⟩ : BufTy).Contents (Elt Ideal))
    (hc1 : (⟨1, ![512]⟩ : Shape).ShapeCasts ⟨2, ![512, 1]⟩) (hc2 : (⟨1, ![10]⟩ : Shape).ShapeCasts ⟨2, ![1, 10]⟩) :
    Read.val_main_v127 (F := Ideal) x0 x1 x2 x3 x4 x5 x6 x7 x8 x9 x10 x11
      = Cert.Spec.pool (Read.val_main_v114 (F := Ideal) x0 x1 x2 x3 x4 x5 x6 x7 x8 x9)
          (shapeCast ⟨2, ![512, 1]⟩ (Read.val_main_v118 (F := Ideal) x2) hc1) x10 (shapeCast ⟨2, ![1, 10]⟩ x11 hc2) := by
  funext i
  obtain ⟨p, q, rfl⟩ : ∃ (p : Fin 512) (q : Fin 10), i = ix2 p q := ⟨i 0, i 1, eq_ix2 i⟩
  rw [Read.val_main_v127_apply, Read.val_main_v124_apply, bias_v126, Cert.Spec.pool_apply, shapeCast_a_1a_apply,
    Keepdims.shapeCast_a_a1_apply]
  refine congrArg (· + x11 (ix1 q)) (Finset.sum_congr rfl fun k _ => ?_)
  rw [lidx_v124, ridx_v124, Read.val_main_v123_apply, count_v122]
  rfl

end Cert.RefSpec

end
-- ==== Proof.LibTypedRef.lean ====
import Idealize.ShloMosaic.Lib.StableHlo

/-!
# A typed reference's two transports cancel

A typed reference `x : TRef sig T` carries contents of the value type `T` to its buffer's own type (`toBuf`) and
back (`ofBuf`), along the equation between the two types. Going there and back is the identity, whatever proof of
the equation the reference holds. A fold through a line of operations on typed references leaves one such pair
around every intermediate value; rewriting with this lemma removes them, so that the remaining term can be compared
with a plain one without unfolding any transport.
-/

namespace Cert.Lib.TypedRef

open Idealize.ShloMosaic Idealize.ShloMosaic.StableHlo

/-- Contents carried to a typed reference's buffer and back are the contents. -/
theorem ofBuf_toBuf {Val : EltTy → Type} {sig : RefSig} {T : BufTy} (x : TRef sig T) (v : T.Contents Val) :
    x.ofBuf (x.toBuf v) = v := by
  obtain ⟨r, rfl, _, _⟩ := x; rfl

end Cert.Lib.TypedRef
-- ==== Proof.FoldAStages.lean ====
/-
  The five stretches of host operations before the first region, each read from arbitrary contents.

  Each stretch is a straight line of operations. Its fold from contents `U` is read at one result buffer: what is
  left is the operations' composed term over `U` at the buffers the stretch reads and does not itself write. When
  `U` holds there the reference's stage functions of the edge list `x1` and the edge weights `x3`, the composed
  term is the reference's next stage function unfolded: the reference runs the same operations in the same order,
  under records and shapes of the same contents. The two calls of the function `where` are three operations on typed
  references each; the transports they leave cancel in pairs.

  The extents are those of the edge list with its self loops, 1650000; nothing here is evaluated at an index.
-/
import proofs.«161608_j5875515261182_1_alg».proof.Proof.Gen.KernelIdeal.Launch
import proofs.«161608_j5875515261182_1_alg».proof.Proof.Gen.ReferenceIdeal.Read
import proofs.«161608_j5875515261182_1_alg».proof.Proof.LibTypedRef

set_option maxRecDepth 16384
set_option maxHeartbeats 400000

noncomputable section

namespace Cert.KernelIdeal.Fold

open Cert.KernelIdeal Cert.KernelIdeal.Gen
open Idealize.ShloMosaic Idealize.ShloMosaic.TcCoe Idealize.SL.Sem

/-- Reads a stretch's fold at a result buffer: one simplification pass over the operations' result equations, then
    the same equations by rewriting for the reads the pass cannot reach (an operand inside a dependent pair, as in
    the operand list of a concatenation). What is left is the operations' composed term over the contents before
    the stretch. -/
local macro "after_reads" : tactic => `(tactic| (
  after_results_simp
  repeat (first
    | rw [StableHlo.nullary_result] | rw [StableHlo.unary_result] | rw [StableHlo.binary_result]
    | rw [StableHlo.ternary_result] | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))))

/-! ## The transports at the two calls' own arguments and results

A call's operations read its arguments and write its result through typed references. The reference's type is
the buffer's own, so each transport is the identity. -/

private theorem ofBuf_v13 (h1 h2 h3) (v : (⟨S50000, .i1⟩ : BufTy).Contents (Elt Ideal)) :
    (StableHlo.TRef.of main_v13 h1 h2 h3 : StableHlo.TRef sig ⟨S50000, .i1⟩).ofBuf (Val := Elt Ideal) v = v := cast_eq _ _
private theorem ofBuf_v15 (h1 h2 h3) (v : (⟨S50000, .f32⟩ : BufTy).Contents (Elt Ideal)) :
    (StableHlo.TRef.of main_v15 h1 h2 h3 : StableHlo.TRef sig ⟨S50000, .f32⟩).ofBuf (Val := Elt Ideal) v = v := cast_eq _ _
private theorem ofBuf_cst_3 (h1 h2 h3) (v : (⟨S_, .f32⟩ : BufTy).Contents (Elt Ideal)) :
    (StableHlo.TRef.of main_cst_3 h1 h2 h3 : StableHlo.TRef sig ⟨S_, .f32⟩).ofBuf (Val := Elt Ideal) v = v := cast_eq _ _
private theorem toBuf_v16 (h1 h2 h3) (v : (⟨S50000, .f32⟩ : BufTy).Contents (Elt Ideal)) :
    (StableHlo.TRef.of main_v16 h1 h2 h3 : StableHlo.TRef sig ⟨S50000, .f32⟩).toBuf (Val := Elt Ideal) v = v := cast_eq _ _
private theorem ofBuf_v39 (h1 h2 h3) (v : (⟨S50000, .i1⟩ : BufTy).Contents (Elt Ideal)) :
    (StableHlo.TRef.of main_v39 h1 h2 h3 : StableHlo.TRef sig ⟨S50000, .i1⟩).ofBuf (Val := Elt Ideal) v = v := cast_eq _ _
private theorem ofBuf_v41 (h1 h2 h3) (v : (⟨S50000, .f32⟩ : BufTy).Contents (Elt Ideal)) :
    (StableHlo.TRef.of main_v41 h1 h2 h3 : StableHlo.TRef sig ⟨S50000, .f32⟩).ofBuf (Val := Elt Ideal) v = v := cast_eq _ _
private theorem ofBuf_cst_11 (h1 h2 h3) (v : (⟨S_, .f32⟩ : BufTy).Contents (Elt Ideal)) :
    (StableHlo.TRef.of main_cst_11 h1 h2 h3 : StableHlo.TRef sig ⟨S_, .f32⟩).ofBuf (Val := Elt Ideal) v = v := cast_eq _ _
private theorem toBuf_v42 (h1 h2 h3) (v : (⟨S50000, .f32⟩ : BufTy).Contents (Elt Ideal)) :
    (StableHlo.TRef.of main_v42 h1 h2 h3 : StableHlo.TRef sig ⟨S50000, .f32⟩).toBuf (Val := Elt Ideal) v = v := cast_eq _ _

/-! ## The first stretch: rows, self loops, weights, degrees -/

/-- The first row of the edge list followed by the self loops. -/
theorem after0_v5 (U : Valuation τ sig (Elt Ideal)) (x1 : (⟨Cert.ReferenceIdeal.S2x1600000, .i32⟩ : BufTy).Contents (Elt Ideal))
    (h1 : U (Proc.devRef .tc main_arg1) = x1) :
    StableHlo.after (hostOps0 (F := Ideal)) U (Proc.devRef .tc main_v5) = Cert.ReferenceIdeal.Read.val_main_v5 (F := Ideal) x1 := by
  after_reads
  rw [h1]
  rfl
/-- The second row of the edge list followed by the self loops. -/
theorem after0_v6 (U : Valuation τ sig (Elt Ideal)) (x1 : (⟨Cert.ReferenceIdeal.S2x1600000, .i32⟩ : BufTy).Contents (Elt Ideal))
    (h1 : U (Proc.devRef .tc main_arg1) = x1) :
    StableHlo.after (hostOps0 (F := Ideal)) U (Proc.devRef .tc main_v6) = Cert.ReferenceIdeal.Read.val_main_v6 (F := Ideal) x1 := by
  after_reads
  rw [h1]
  rfl
/-- The edge weights followed by the self loops' weight. -/
theorem after0_v8 (U : Valuation τ sig (Elt Ideal)) (x3 : (⟨Cert.ReferenceIdeal.S1600000, .f32⟩ : BufTy).Contents (Elt Ideal))
    (h3 : U (Proc.devRef .tc main_arg3) = x3) :
    StableHlo.after (hostOps0 (F := Ideal)) U (Proc.devRef .tc main_v8) = Cert.ReferenceIdeal.Read.val_main_v8 (F := Ideal) x3 := by
  after_reads
  rw [h3]
  rfl
/-- Where a node's weighted degree (its self loop counted) is positive. -/
theorem after0_v13 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h1 : U (Proc.devRef .tc main_arg1) = x1)
    (h3 : U (Proc.devRef .tc main_arg3) = x3) :
    StableHlo.after (hostOps0 (F := Ideal)) U (Proc.devRef .tc main_v13) = Cert.ReferenceIdeal.Read.val_main_v13 (F := Ideal) x1 x3 := by
  after_reads
  rw [h1, h3]
  rfl
/-- The weighted degrees to the power -1/2. -/
theorem after0_v15 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h1 : U (Proc.devRef .tc main_arg1) = x1)
    (h3 : U (Proc.devRef .tc main_arg3) = x3) :
    StableHlo.after (hostOps0 (F := Ideal)) U (Proc.devRef .tc main_v15) = Cert.ReferenceIdeal.Read.val_main_v15 (F := Ideal) x1 x3 := by
  after_reads
  rw [h1, h3]
  rfl
/-- The constant zero the first call of `where` is given. -/
theorem after0_cst_3 (U : Valuation τ sig (Elt Ideal))  :
    StableHlo.after (hostOps0 (F := Ideal)) U (Proc.devRef .tc main_cst_3) = Cert.ReferenceIdeal.Read.val_main_cst_3 (F := Ideal) := by
  after_reads
  rfl

/-! ## The second stretch: the first call of `where` -/

/-- The normalisation: the power where the degree is positive, zero elsewhere. -/
theorem after0_1_v16 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h13 : U (Proc.devRef .tc main_v13) = Cert.ReferenceIdeal.Read.val_main_v13 (F := Ideal) x1 x3)
    (h15 : U (Proc.devRef .tc main_v15) = Cert.ReferenceIdeal.Read.val_main_v15 (F := Ideal) x1 x3)
    (hc : U (Proc.devRef .tc main_cst_3) = Cert.ReferenceIdeal.Read.val_main_cst_3 (F := Ideal)) :
    StableHlo.after (hostOps0_1 (F := Ideal)) U (Proc.devRef .tc main_v16) = Cert.ReferenceIdeal.Read.val_main_v16 (F := Ideal) x1 x3 := by
  after_reads
  simp only [Cert.Lib.TypedRef.ofBuf_toBuf, ofBuf_v13, ofBuf_v15, ofBuf_cst_3, toBuf_v16]
  rw [h13, h15, hc]
  rfl

/-! ## The third stretch: the first layer's edge weights, and the degrees again -/

/-- Every edge weight scaled by the normalisation at both of its ends. -/
theorem after0_2_v32 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h5 : U (Proc.devRef .tc main_v5) = Cert.ReferenceIdeal.Read.val_main_v5 (F := Ideal) x1)
    (h6 : U (Proc.devRef .tc main_v6) = Cert.ReferenceIdeal.Read.val_main_v6 (F := Ideal) x1)
    (h8 : U (Proc.devRef .tc main_v8) = Cert.ReferenceIdeal.Read.val_main_v8 (F := Ideal) x3)
    (h16 : U (Proc.devRef .tc main_v16) = Cert.ReferenceIdeal.Read.val_main_v16 (F := Ideal) x1 x3) :
    StableHlo.after (hostOps0_2 (F := Ideal)) U (Proc.devRef .tc main_v32) = Cert.ReferenceIdeal.Read.val_main_v32 (F := Ideal) x1 x3 := by
  after_reads
  rw [h5, h6, h8, h16]
  rfl
/-- The edge weights followed by the weight one per self loop. -/
theorem after0_2_v34 (U : Valuation τ sig (Elt Ideal)) (x3 : (⟨Cert.ReferenceIdeal.S1600000, .f32⟩ : BufTy).Contents (Elt Ideal))
    (h3 : U (Proc.devRef .tc main_arg3) = x3) :
    StableHlo.after (hostOps0_2 (F := Ideal)) U (Proc.devRef .tc main_v34) = Cert.ReferenceIdeal.Read.val_main_v34 (F := Ideal) x3 := by
  after_reads
  rw [h3]
  rfl
/-- Where a node's weighted degree under the unit self loops is positive. -/
theorem after0_2_v39 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h6 : U (Proc.devRef .tc main_v6) = Cert.ReferenceIdeal.Read.val_main_v6 (F := Ideal) x1)
    (h3 : U (Proc.devRef .tc main_arg3) = x3) :
    StableHlo.after (hostOps0_2 (F := Ideal)) U (Proc.devRef .tc main_v39) = Cert.ReferenceIdeal.Read.val_main_v39 (F := Ideal) x1 x3 := by
  after_reads
  rw [h6, h3]
  rfl
/-- Those degrees to the power -1/2. -/
theorem after0_2_v41 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h6 : U (Proc.devRef .tc main_v6) = Cert.ReferenceIdeal.Read.val_main_v6 (F := Ideal) x1)
    (h3 : U (Proc.devRef .tc main_arg3) = x3) :
    StableHlo.after (hostOps0_2 (F := Ideal)) U (Proc.devRef .tc main_v41) = Cert.ReferenceIdeal.Read.val_main_v41 (F := Ideal) x1 x3 := by
  after_reads
  rw [h6, h3]
  rfl
/-- The constant zero the second call of `where` is given. -/
theorem after0_2_cst_11 (U : Valuation τ sig (Elt Ideal))  :
    StableHlo.after (hostOps0_2 (F := Ideal)) U (Proc.devRef .tc main_cst_11) = Cert.ReferenceIdeal.Read.val_main_cst_11 (F := Ideal) := by
  after_reads
  rfl

/-! ## The fourth stretch: the second call of `where` -/

/-- The second normalisation. -/
theorem after0_3_v42 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h39 : U (Proc.devRef .tc main_v39) = Cert.ReferenceIdeal.Read.val_main_v39 (F := Ideal) x1 x3)
    (h41 : U (Proc.devRef .tc main_v41) = Cert.ReferenceIdeal.Read.val_main_v41 (F := Ideal) x1 x3)
    (hc : U (Proc.devRef .tc main_cst_11) = Cert.ReferenceIdeal.Read.val_main_cst_11 (F := Ideal)) :
    StableHlo.after (hostOps0_3 (F := Ideal)) U (Proc.devRef .tc main_v42) = Cert.ReferenceIdeal.Read.val_main_v42 (F := Ideal) x1 x3 := by
  after_reads
  simp only [Cert.Lib.TypedRef.ofBuf_toBuf, ofBuf_v39, ofBuf_v41, ofBuf_cst_11, toBuf_v42]
  rw [h39, h41, hc]
  rfl

/-! ## The fifth stretch: the later layers' edge weights -/

/-- Every unit-self-loop edge weight scaled by the second normalisation at both of its ends. -/
theorem after0_4_v58 (U : Valuation τ sig (Elt Ideal)) (x1 : (⟨Cert.ReferenceIdeal.S2x1600000, .i32⟩ : BufTy).Contents (Elt Ideal)) (x3 : (⟨Cert.ReferenceIdeal.S1600000, .f32⟩ : BufTy).Contents (Elt Ideal))
    (h5 : U (Proc.devRef .tc main_v5) = Cert.ReferenceIdeal.Read.val_main_v5 (F := Ideal) x1)
    (h6 : U (Proc.devRef .tc main_v6) = Cert.ReferenceIdeal.Read.val_main_v6 (F := Ideal) x1)
    (h34 : U (Proc.devRef .tc main_v34) = Cert.ReferenceIdeal.Read.val_main_v34 (F := Ideal) x3)
    (h42 : U (Proc.devRef .tc main_v42) = Cert.ReferenceIdeal.Read.val_main_v42 (F := Ideal) x1 x3) :
    StableHlo.after (hostOps0_4 (F := Ideal)) U (Proc.devRef .tc main_v58) = Cert.ReferenceIdeal.Read.val_main_v58 (F := Ideal) x1 x3 := by
  after_reads
  rw [h5, h6, h34, h42]
  rfl

end Cert.KernelIdeal.Fold

end
-- ==== Proof.FoldA.lean ====
/-
  The host operations before the first region, read at the buffers the later segments use.

  Before its first region the kernel program runs eighty host operations, in five stretches: the edge list is split
  into its two rows, each row is extended by the self loops 0 … 49999, the edge weights are extended by a constant
  per self loop, the weighted degrees are scatter-added, raised to the power -1/2 where positive (zero elsewhere), and
  gathered back along both rows to scale every edge weight; then the same again with unit self loops. The reference
  program runs the same operations, one for one. This module states what the kernel's fold through the five
  stretches leaves at the buffers that are read afterwards — the two extended rows, the two vectors of normalised
  edge weights — as the reference's own stage functions of the launch contents of the edge list and the edge
  weights, and that the argument buffers are left as launched.

  The contents at the five boundaries are a fold, each stretch applied to the contents before it. A buffer is
  followed from the stretch that writes it: there the stretch's reading from arbitrary contents applies, its
  hypotheses being the readings already obtained at the boundary before; from then on no operation writes it, and
  it is carried unchanged to the next boundary. Nothing is evaluated at an index.
-/
import proofs.«161608_j5875515261182_1_alg».proof.Proof.Gen.KernelIdeal.Frame
import proofs.«161608_j5875515261182_1_alg».proof.Proof.FoldAStages

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-- Closes `after ops V b = V b` for one of the five stretches and a buffer `b` none of its operations writes:
    each operation writes one buffer, and that buffer is another reference than `b`. -/
local macro "unwritten" : tactic => `(tactic| (
  refine StableHlo.after_of_forall_not_mem _ _ (List.forall_iff_forall_mem.mp ?_)
  simp only [hostOps0, hostOps0_1, hostOps0_2, hostOps0_3, hostOps0_4, List.Forall, StableHlo.nullary_writes,
    StableHlo.unary_writes, StableHlo.binary_writes, StableHlo.ternary_writes, StableHlo.reshape_writes,
    Finset.mem_singleton]
  repeat' apply And.intro
  all_goals exact StableHlo.devRef_ne_of_ne (by decide)))

/-! ## The launch contents -/

/-- The fold starts from the launch memory. -/
theorem W0_at (b : Ref sig .tc) : W0 m ρ c (Proc.devRef .tc b) = m ((c : Thread nD τ).loc b) := rfl

/-! ## The argument buffers are left as launched: no host operation writes one -/

theorem W5_arg0 : W5 m ρ c (Proc.devRef .tc main_arg0)
    = m ((c : Thread nD τ).loc main_arg0) :=
  calc W5 m ρ c (Proc.devRef .tc main_arg0)
    _ = W4 m ρ c (Proc.devRef .tc main_arg0) := by unwritten
    _ = W3 m ρ c (Proc.devRef .tc main_arg0) := by unwritten
    _ = W2 m ρ c (Proc.devRef .tc main_arg0) := by unwritten
    _ = W1 m ρ c (Proc.devRef .tc main_arg0) := by unwritten
    _ = W0 m ρ c (Proc.devRef .tc main_arg0) := by unwritten
    _ = _ := rfl
theorem W5_arg2 : W5 m ρ c (Proc.devRef .tc main_arg2)
    = m ((c : Thread nD τ).loc main_arg2) :=
  calc W5 m ρ c (Proc.devRef .tc main_arg2)
    _ = W4 m ρ c (Proc.devRef .tc main_arg2) := by unwritten
    _ = W3 m ρ c (Proc.devRef .tc main_arg2) := by unwritten
    _ = W2 m ρ c (Proc.devRef .tc main_arg2) := by unwritten
    _ = W1 m ρ c (Proc.devRef .tc main_arg2) := by unwritten
    _ = W0 m ρ c (Proc.devRef .tc main_arg2) := by unwritten
    _ = _ := rfl
theorem W5_arg4 : W5 m ρ c (Proc.devRef .tc main_arg4)
    = m ((c : Thread nD τ).loc main_arg4) :=
  calc W5 m ρ c (Proc.devRef .tc main_arg4)
    _ = W4 m ρ c (Proc.devRef .tc main_arg4) := by unwritten
    _ = W3 m ρ c (Proc.devRef .tc main_arg4) := by unwritten
    _ = W2 m ρ c (Proc.devRef .tc main_arg4) := by unwritten
    _ = W1 m ρ c (Proc.devRef .tc main_arg4) := by unwritten
    _ = W0 m ρ c (Proc.devRef .tc main_arg4) := by unwritten
    _ = _ := rfl
theorem W5_arg5 : W5 m ρ c (Proc.devRef .tc main_arg5)
    = m ((c : Thread nD τ).loc main_arg5) :=
  calc W5 m ρ c (Proc.devRef .tc main_arg5)
    _ = W4 m ρ c (Proc.devRef .tc main_arg5) := by unwritten
    _ = W3 m ρ c (Proc.devRef .tc main_arg5) := by unwritten
    _ = W2 m ρ c (Proc.devRef .tc main_arg5) := by unwritten
    _ = W1 m ρ c (Proc.devRef .tc main_arg5) := by unwritten
    _ = W0 m ρ c (Proc.devRef .tc main_arg5) := by unwritten
    _ = _ := rfl
theorem W5_arg6 : W5 m ρ c (Proc.devRef .tc main_arg6)
    = m ((c : Thread nD τ).loc main_arg6) :=
  calc W5 m ρ c (Proc.devRef .tc main_arg6)
    _ = W4 m ρ c (Proc.devRef .tc main_arg6) := by unwritten
    _ = W3 m ρ c (Proc.devRef .tc main_arg6) := by unwritten
    _ = W2 m ρ c (Proc.devRef .tc main_arg6) := by unwritten
    _ = W1 m ρ c (Proc.devRef .tc main_arg6) := by unwritten
    _ = W0 m ρ c (Proc.devRef .tc main_arg6) := by unwritten
    _ = _ := rfl
theorem W5_arg7 : W5 m ρ c (Proc.devRef .tc main_arg7)
    = m ((c : Thread nD τ).loc main_arg7) :=
  calc W5 m ρ c (Proc.devRef .tc main_arg7)
    _ = W4 m ρ c (Proc.devRef .tc main_arg7) := by unwritten
    _ = W3 m ρ c (Proc.devRef .tc main_arg7) := by unwritten
    _ = W2 m ρ c (Proc.devRef .tc main_arg7) := by unwritten
    _ = W1 m ρ c (Proc.devRef .tc main_arg7) := by unwritten
    _ = W0 m ρ c (Proc.devRef .tc main_arg7) := by unwritten
    _ = _ := rfl
theorem W5_arg8 : W5 m ρ c (Proc.devRef .tc main_arg8)
    = m ((c : Thread nD τ).loc main_arg8) :=
  calc W5 m ρ c (Proc.devRef .tc main_arg8)
    _ = W4 m ρ c (Proc.devRef .tc main_arg8) := by unwritten
    _ = W3 m ρ c (Proc.devRef .tc main_arg8) := by unwritten
    _ = W2 m ρ c (Proc.devRef .tc main_arg8) := by unwritten
    _ = W1 m ρ c (Proc.devRef .tc main_arg8) := by unwritten
    _ = W0 m ρ c (Proc.devRef .tc main_arg8) := by unwritten
    _ = _ := rfl
theorem W5_arg9 : W5 m ρ c (Proc.devRef .tc main_arg9)
    = m ((c : Thread nD τ).loc main_arg9) :=
  calc W5 m ρ c (Proc.devRef .tc main_arg9)
    _ = W4 m ρ c (Proc.devRef .tc main_arg9) := by unwritten
    _ = W3 m ρ c (Proc.devRef .tc main_arg9) := by unwritten
    _ = W2 m ρ c (Proc.devRef .tc main_arg9) := by unwritten
    _ = W1 m ρ c (Proc.devRef .tc main_arg9) := by unwritten
    _ = W0 m ρ c (Proc.devRef .tc main_arg9) := by unwritten
    _ = _ := rfl
theorem W5_arg10 : W5 m ρ c (Proc.devRef .tc main_arg10)
    = m ((c : Thread nD τ).loc main_arg10) :=
  calc W5 m ρ c (Proc.devRef .tc main_arg10)
    _ = W4 m ρ c (Proc.devRef .tc main_arg10) := by unwritten
    _ = W3 m ρ c (Proc.devRef .tc main_arg10) := by unwritten
    _ = W2 m ρ c (Proc.devRef .tc main_arg10) := by unwritten
    _ = W1 m ρ c (Proc.devRef .tc main_arg10) := by unwritten
    _ = W0 m ρ c (Proc.devRef .tc main_arg10) := by unwritten
    _ = _ := rfl
theorem W5_arg11 : W5 m ρ c (Proc.devRef .tc main_arg11)
    = m ((c : Thread nD τ).loc main_arg11) :=
  calc W5 m ρ c (Proc.devRef .tc main_arg11)
    _ = W4 m ρ c (Proc.devRef .tc main_arg11) := by unwritten
    _ = W3 m ρ c (Proc.devRef .tc main_arg11) := by unwritten
    _ = W2 m ρ c (Proc.devRef .tc main_arg11) := by unwritten
    _ = W1 m ρ c (Proc.devRef .tc main_arg11) := by unwritten
    _ = W0 m ρ c (Proc.devRef .tc main_arg11) := by unwritten
    _ = _ := rfl

/-! ## After the first stretch -/

theorem W1_v5 : W1 m ρ c (Proc.devRef .tc main_v5) = Cert.ReferenceIdeal.Read.val_main_v5 (F := Ideal) (m ((c : Thread nD τ).loc main_arg1)) :=
  after0_v5 (W0 m ρ c) _ rfl
theorem W1_v6 : W1 m ρ c (Proc.devRef .tc main_v6) = Cert.ReferenceIdeal.Read.val_main_v6 (F := Ideal) (m ((c : Thread nD τ).loc main_arg1)) :=
  after0_v6 (W0 m ρ c) _ rfl
theorem W1_v8 : W1 m ρ c (Proc.devRef .tc main_v8) = Cert.ReferenceIdeal.Read.val_main_v8 (F := Ideal) (m ((c : Thread nD τ).loc main_arg3)) :=
  after0_v8 (W0 m ρ c) _ rfl
theorem W1_v13 : W1 m ρ c (Proc.devRef .tc main_v13) = Cert.ReferenceIdeal.Read.val_main_v13 (F := Ideal) (m ((c : Thread nD τ).loc main_arg1)) (m ((c : Thread nD τ).loc main_arg3)) :=
  after0_v13 (W0 m ρ c) _ _ rfl rfl
theorem W1_v15 : W1 m ρ c (Proc.devRef .tc main_v15) = Cert.ReferenceIdeal.Read.val_main_v15 (F := Ideal) (m ((c : Thread nD τ).loc main_arg1)) (m ((c : Thread nD τ).loc main_arg3)) :=
  after0_v15 (W0 m ρ c) _ _ rfl rfl
theorem W1_cst_3 : W1 m ρ c (Proc.devRef .tc main_cst_3) = Cert.ReferenceIdeal.Read.val_main_cst_3 (F := Ideal) :=
  after0_cst_3 (W0 m ρ c)

/-! ## After the first call of `where` -/

theorem W2_v16 : W2 m ρ c (Proc.devRef .tc main_v16) = Cert.ReferenceIdeal.Read.val_main_v16 (F := Ideal) (m ((c : Thread nD τ).loc main_arg1)) (m ((c : Thread nD τ).loc main_arg3)) :=
  after0_1_v16 (W1 m ρ c) _ _ (W1_v13 m ρ c) (W1_v15 m ρ c) (W1_cst_3 m ρ c)
theorem W2_v5 : W2 m ρ c (Proc.devRef .tc main_v5)
    = Cert.ReferenceIdeal.Read.val_main_v5 (F := Ideal) (m ((c : Thread nD τ).loc main_arg1)) :=
  calc W2 m ρ c (Proc.devRef .tc main_v5)
    _ = W1 m ρ c (Proc.devRef .tc main_v5) := by unwritten
    _ = _ := W1_v5 m ρ c
theorem W2_v6 : W2 m ρ c (Proc.devRef .tc main_v6)
    = Cert.ReferenceIdeal.Read.val_main_v6 (F := Ideal) (m ((c : Thread nD τ).loc main_arg1)) :=
  calc W2 m ρ c (Proc.devRef .tc main_v6)
    _ = W1 m ρ c (Proc.devRef .tc main_v6) := by unwritten
    _ = _ := W1_v6 m ρ c
theorem W2_v8 : W2 m ρ c (Proc.devRef .tc main_v8)
    = Cert.ReferenceIdeal.Read.val_main_v8 (F := Ideal) (m ((c : Thread nD τ).loc main_arg3)) :=
  calc W2 m ρ c (Proc.devRef .tc main_v8)
    _ = W1 m ρ c (Proc.devRef .tc main_v8) := by unwritten
    _ = _ := W1_v8 m ρ c
theorem W2_arg3 : W2 m ρ c (Proc.devRef .tc main_arg3)
    = m ((c : Thread nD τ).loc main_arg3) :=
  calc W2 m ρ c (Proc.devRef .tc main_arg3)
    _ = W1 m ρ c (Proc.devRef .tc main_arg3) := by unwritten
    _ = W0 m ρ c (Proc.devRef .tc main_arg3) := by unwritten
    _ = _ := rfl

/-! ## After the third stretch -/

theorem W3_v32 : W3 m ρ c (Proc.devRef .tc main_v32) = Cert.ReferenceIdeal.Read.val_main_v32 (F := Ideal) (m ((c : Thread nD τ).loc main_arg1)) (m ((c : Thread nD τ).loc main_arg3)) :=
  after0_2_v32 (W2 m ρ c) _ _ (W2_v5 m ρ c) (W2_v6 m ρ c) (W2_v8 m ρ c) (W2_v16 m ρ c)
theorem W3_v34 : W3 m ρ c (Proc.devRef .tc main_v34) = Cert.ReferenceIdeal.Read.val_main_v34 (F := Ideal) (m ((c : Thread nD τ).loc main_arg3)) :=
  after0_2_v34 (W2 m ρ c) _ (W2_arg3 m ρ c)
theorem W3_v39 : W3 m ρ c (Proc.devRef .tc main_v39) = Cert.ReferenceIdeal.Read.val_main_v39 (F := Ideal) (m ((c : Thread nD τ).loc main_arg1)) (m ((c : Thread nD τ).loc main_arg3)) :=
  after0_2_v39 (W2 m ρ c) _ _ (W2_v6 m ρ c) (W2_arg3 m ρ c)
theorem W3_v41 : W3 m ρ c (Proc.devRef .tc main_v41) = Cert.ReferenceIdeal.Read.val_main_v41 (F := Ideal) (m ((c : Thread nD τ).loc main_arg1)) (m ((c : Thread nD τ).loc main_arg3)) :=
  after0_2_v41 (W2 m ρ c) _ _ (W2_v6 m ρ c) (W2_arg3 m ρ c)
theorem W3_cst_11 : W3 m ρ c (Proc.devRef .tc main_cst_11) = Cert.ReferenceIdeal.Read.val_main_cst_11 (F := Ideal) :=
  after0_2_cst_11 (W2 m ρ c)
theorem W3_v5 : W3 m ρ c (Proc.devRef .tc main_v5)
    = Cert.ReferenceIdeal.Read.val_main_v5 (F := Ideal) (m ((c : Thread nD τ).loc main_arg1)) :=
  calc W3 m ρ c (Proc.devRef .tc main_v5)
    _ = W2 m ρ c (Proc.devRef .tc main_v5) := by unwritten
    _ = _ := W2_v5 m ρ c
theorem W3_v6 : W3 m ρ c (Proc.devRef .tc main_v6)
    = Cert.ReferenceIdeal.Read.val_main_v6 (F := Ideal) (m ((c : Thread nD τ).loc main_arg1)) :=
  calc W3 m ρ c (Proc.devRef .tc main_v6)
    _ = W2 m ρ c (Proc.devRef .tc main_v6) := by unwritten
    _ = _ := W2_v6 m ρ c

/-! ## After the second call of `where` -/

theorem W4_v42 : W4 m ρ c (Proc.devRef .tc main_v42) = Cert.ReferenceIdeal.Read.val_main_v42 (F := Ideal) (m ((c : Thread nD τ).loc main_arg1)) (m ((c : Thread nD τ).loc main_arg3)) :=
  after0_3_v42 (W3 m ρ c) _ _ (W3_v39 m ρ c) (W3_v41 m ρ c) (W3_cst_11 m ρ c)
theorem W4_v5 : W4 m ρ c (Proc.devRef .tc main_v5)
    = Cert.ReferenceIdeal.Read.val_main_v5 (F := Ideal) (m ((c : Thread nD τ).loc main_arg1)) :=
  calc W4 m ρ c (Proc.devRef .tc main_v5)
    _ = W3 m ρ c (Proc.devRef .tc main_v5) := by unwritten
    _ = _ := W3_v5 m ρ c
theorem W4_v6 : W4 m ρ c (Proc.devRef .tc main_v6)
    = Cert.ReferenceIdeal.Read.val_main_v6 (F := Ideal) (m ((c : Thread nD τ).loc main_arg1)) :=
  calc W4 m ρ c (Proc.devRef .tc main_v6)
    _ = W3 m ρ c (Proc.devRef .tc main_v6) := by unwritten
    _ = _ := W3_v6 m ρ c
theorem W4_v34 : W4 m ρ c (Proc.devRef .tc main_v34)
    = Cert.ReferenceIdeal.Read.val_main_v34 (F := Ideal) (m ((c : Thread nD τ).loc main_arg3)) :=
  calc W4 m ρ c (Proc.devRef .tc main_v34)
    _ = W3 m ρ c (Proc.devRef .tc main_v34) := by unwritten
    _ = _ := W3_v34 m ρ c

/-! ## At the first region's entry -/

/-- The first row of the edge list followed by the self loops. -/
theorem W5_v5 : W5 m ρ c (Proc.devRef .tc main_v5)
    = Cert.ReferenceIdeal.Read.val_main_v5 (F := Ideal) (m ((c : Thread nD τ).loc main_arg1)) :=
  calc W5 m ρ c (Proc.devRef .tc main_v5)
    _ = W4 m ρ c (Proc.devRef .tc main_v5) := by unwritten
    _ = _ := W4_v5 m ρ c
/-- The second row of the edge list followed by the self loops. -/
theorem W5_v6 : W5 m ρ c (Proc.devRef .tc main_v6)
    = Cert.ReferenceIdeal.Read.val_main_v6 (F := Ideal) (m ((c : Thread nD τ).loc main_arg1)) :=
  calc W5 m ρ c (Proc.devRef .tc main_v6)
    _ = W4 m ρ c (Proc.devRef .tc main_v6) := by unwritten
    _ = _ := W4_v6 m ρ c
/-- The first layer's normalised edge weights. -/
theorem W5_v32 : W5 m ρ c (Proc.devRef .tc main_v32)
    = Cert.ReferenceIdeal.Read.val_main_v32 (F := Ideal) (m ((c : Thread nD τ).loc main_arg1)) (m ((c : Thread nD τ).loc main_arg3)) :=
  calc W5 m ρ c (Proc.devRef .tc main_v32)
    _ = W4 m ρ c (Proc.devRef .tc main_v32) := by unwritten
    _ = W3 m ρ c (Proc.devRef .tc main_v32) := by unwritten
    _ = _ := W3_v32 m ρ c
/-- The later layers' normalised edge weights. -/
theorem W5_v58 : W5 m ρ c (Proc.devRef .tc main_v58) = Cert.ReferenceIdeal.Read.val_main_v58 (F := Ideal) (m ((c : Thread nD τ).loc main_arg1)) (m ((c : Thread nD τ).loc main_arg3)) :=
  after0_4_v58 (W4 m ρ c) _ _ (W4_v5 m ρ c) (W4_v6 m ρ c) (W4_v34 m ρ c) (W4_v42 m ρ c)

end Cert.KernelIdeal.Fold

end
-- ==== Proof.FoldB.lean ====
import proofs.«161608_j5875515261182_1_alg».proof.Proof.Gen.KernelIdeal.Launch
import proofs.«161608_j5875515261182_1_alg».proof.Proof.Gen.ReferenceIdeal.Read

/-!
# The three later host stretches, read at the buffers the next region takes

Between its matrix-product regions the kernel program runs, on the host, the same graph operations as the reference:
per layer, a gather of the projected rows along the edges' source column (a negative row number wrapped by adding
50000), a scaling by the edge weights, and a scatter-add into a zero array along the target column; before the last
region also the layer's bias, the per-graph sum of the node rows and the per-graph node count. Each stretch is a
straight line of operations, so its effect on a buffer is the composition of the operations that lead to it, read
off the contents `U` the stretch starts from. Here each stretch's effect is stated over an ARBITRARY start `U`:
if the buffers it reads hold the reference's stage values, the buffer the next region reads holds the reference's
next stage value. The reference's stage functions are the shared vocabulary; nothing is evaluated, the two sides are
the same composition of the same operations and agree by unfolding names.

Also stated: which buffers a stretch leaves untouched (those none of its operations writes).
-/

set_option maxRecDepth 1264

noncomputable section

namespace Cert.KernelIdeal.Fold

open Idealize.ShloMosaic Idealize.ShloMosaic.TcCoe Idealize.SL.Sem
open Cert.KernelIdeal Cert.KernelIdeal.Gen
open Cert.ReferenceIdeal (Read.val_main_v5 Read.val_main_v6 Read.val_main_v32 Read.val_main_v58 Read.val_main_v59 Read.val_main_v72
  Read.val_main_v77 Read.val_main_v90 Read.val_main_v95 Read.val_main_v114 Read.val_main_v118)

/-! ## Stretch 1 (between the first and the second region) -/

/-- The second region's bias row: the layer's bias vector as one row of 128. -/
theorem after1_v75 (U : Valuation τ sig (Elt Ideal)) :
    StableHlo.after (Gen.hostOps1 (F := Ideal)) U (Proc.devRef .tc main_v75)
      = shapeCast S1x128 (U (Proc.devRef .tc main_arg5)) shapeCasts_S128_S1x128 := by
  simp only [Gen.hostOps1]
  after_results_simp
  rfl

/-- The first aggregation. With the projected features at the first region's output and the edge tables where the
    earlier operations left them, the stretch gathers the source rows (a negative row number wrapped by adding 50000),
    scales each by its edge weight and adds it into its target row of a zero array: the reference's first aggregated
    array, operation for operation. -/
theorem after1_v74 (U : Valuation τ sig (Elt Ideal))
    (x0 : (⟨Cert.ReferenceIdeal.S50000x128, .f32⟩ : BufTy).Contents (Elt Ideal))
    (x1 : (⟨Cert.ReferenceIdeal.S2x1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (h61 : U (Proc.devRef .tc main_v61) = Read.val_main_v59 (F := Ideal) x0 x4)
    (h5 : U (Proc.devRef .tc main_v5) = Read.val_main_v5 (F := Ideal) x1)
    (h6 : U (Proc.devRef .tc main_v6) = Read.val_main_v6 (F := Ideal) x1)
    (h32 : U (Proc.devRef .tc main_v32) = Read.val_main_v32 (F := Ideal) x1 x3) :
    StableHlo.after (Gen.hostOps1 (F := Ideal)) U (Proc.devRef .tc main_v74)
      = Read.val_main_v72 (F := Ideal) x0 x1 x3 x4 := by
  simp only [Gen.hostOps1]
  after_results_simp
  rw [h61, h5, h6, h32]
  rfl

/-! ## Stretch 1: what it writes -/

/-- The buffers the operations of stretch 1 write, in order. -/
abbrev hostOps1_W : List (Ref sig .tc) :=
  [main_c_17, main_v62, main_v63, main_c_18, main_v64, main_v65, main_v66, main_v67, main_v68, main_v69, main_v70, main_v71, main_cst_19, main_v72, main_v73, main_v74, main_v75]

/-- Every operation of stretch 1 writes one buffer of that list. -/
theorem hostOps1_writes : (Gen.hostOps1 (F := Ideal)).Forall fun op =>
    op.writes ⊆ (hostOps1_W.map (Proc.devRef (τ := τ) .tc)).toFinset := by
  simp only [Gen.hostOps1, List.Forall]
  repeat' apply And.intro
  all_goals
    simp only [StableHlo.nullary_writes, StableHlo.unary_writes, StableHlo.binary_writes, StableHlo.ternary_writes, StableHlo.quaternary_writes, StableHlo.reshape_writes, Finset.singleton_subset_iff, List.mem_toFinset]
    exact List.mem_map_of_mem (by decide)

/-- Stretch 1 leaves alone the edge tables, the later layers' weights and biases and the pooling arguments: none of its operations writes one of them. -/
theorem after1_keep (U : Valuation τ sig (Elt Ideal)) (b : Ref sig .tc)
    (hb : b ∈ ([main_v5, main_v6, main_v58, main_arg2, main_arg6, main_arg7, main_arg8, main_arg9, main_arg10, main_arg11] : List (Ref sig .tc))) :
    StableHlo.after (Gen.hostOps1 (F := Ideal)) U (Proc.devRef .tc b) = U (Proc.devRef .tc b) :=
  StableHlo.after_of_writes_sub _ U hostOps1_writes
    ((by decide : ∀ r ∈ ([main_v5, main_v6, main_v58, main_arg2, main_arg6, main_arg7, main_arg8, main_arg9, main_arg10, main_arg11] : List (Ref sig .tc)), r ∉ hostOps1_W) b hb)

/-! ## Stretch 2 (between the second and the third region): stretch 1's operations on the next layer's buffers,
    with the second set of edge weights -/

/-- The third region's bias row. -/
theorem after2_v90 (U : Valuation τ sig (Elt Ideal)) :
    StableHlo.after (Gen.hostOps2 (F := Ideal)) U (Proc.devRef .tc main_v90)
      = shapeCast S1x128 (U (Proc.devRef .tc main_arg7)) shapeCasts_S128_S1x128 := by
  simp only [Gen.hostOps2]
  after_results_simp
  rfl

/-- The second aggregation: gather along the sources, scale by the second edge weights, scatter-add along the
    targets, from the second region's output: the reference's second aggregated array. -/
theorem after2_v89 (U : Valuation τ sig (Elt Ideal))
    (x0 : (⟨Cert.ReferenceIdeal.S50000x128, .f32⟩ : BufTy).Contents (Elt Ideal))
    (x1 : (⟨Cert.ReferenceIdeal.S2x1600000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (h76 : U (Proc.devRef .tc main_v76) = Read.val_main_v77 (F := Ideal) x0 x1 x3 x4 x5 x6)
    (h5 : U (Proc.devRef .tc main_v5) = Read.val_main_v5 (F := Ideal) x1)
    (h6 : U (Proc.devRef .tc main_v6) = Read.val_main_v6 (F := Ideal) x1)
    (h58 : U (Proc.devRef .tc main_v58) = Read.val_main_v58 (F := Ideal) x1 x3) :
    StableHlo.after (Gen.hostOps2 (F := Ideal)) U (Proc.devRef .tc main_v89)
      = Read.val_main_v90 (F := Ideal) x0 x1 x3 x4 x5 x6 := by
  simp only [Gen.hostOps2]
  after_results_simp
  rw [h76, h5, h6, h58]
  rfl

/-! ## Stretch 2: what it writes -/

/-- The buffers the operations of stretch 2 write, in order. -/
abbrev hostOps2_W : List (Ref sig .tc) :=
  [main_c_20, main_v77, main_v78, main_c_21, main_v79, main_v80, main_v81, main_v82, main_v83, main_v84, main_v85, main_v86, main_cst_22, main_v87, main_v88, main_v89, main_v90]

/-- Every operation of stretch 2 writes one buffer of that list. -/
theorem hostOps2_writes : (Gen.hostOps2 (F := Ideal)).Forall fun op =>
    op.writes ⊆ (hostOps2_W.map (Proc.devRef (τ := τ) .tc)).toFinset := by
  simp only [Gen.hostOps2, List.Forall]
  repeat' apply And.intro
  all_goals
    simp only [StableHlo.nullary_writes, StableHlo.unary_writes, StableHlo.binary_writes, StableHlo.ternary_writes, StableHlo.quaternary_writes, StableHlo.reshape_writes, Finset.singleton_subset_iff, List.mem_toFinset]
    exact List.mem_map_of_mem (by decide)

/-- Stretch 2 leaves alone the edge tables, the third layer's weights and bias and the pooling arguments: none of its operations writes one of them. -/
theorem after2_keep (U : Valuation τ sig (Elt Ideal)) (b : Ref sig .tc)
    (hb : b ∈ ([main_v5, main_v6, main_v58, main_arg2, main_arg8, main_arg9, main_arg10, main_arg11] : List (Ref sig .tc))) :
    StableHlo.after (Gen.hostOps2 (F := Ideal)) U (Proc.devRef .tc b) = U (Proc.devRef .tc b) :=
  StableHlo.after_of_writes_sub _ U hostOps2_writes
    ((by decide : ∀ r ∈ ([main_v5, main_v6, main_v58, main_arg2, main_arg8, main_arg9, main_arg10, main_arg11] : List (Ref sig .tc)), r ∉ hostOps2_W) b hb)

/-! ## Stretch 3 (before the last region): the third aggregation, its bias, the per-graph sums and counts -/

/-- The last region's bias row: the head's bias vector as one row of 10. -/
theorem after3_v116 (U : Valuation τ sig (Elt Ideal)) :
    StableHlo.after (Gen.hostOps3 (F := Ideal)) U (Proc.devRef .tc main_v116)
      = shapeCast S1x10 (U (Proc.devRef .tc main_arg11)) shapeCasts_S10_S1x10 := by
  simp only [Gen.hostOps3]
  after_results_simp
  rfl

/-- The per-graph node counts as a column: ones added along the graph numbers into a zero vector of 512, the
    reference's count vector, reshaped to 512 rows of one. -/
theorem after3_v115 (U : Valuation τ sig (Elt Ideal))
    (x2 : (⟨Cert.ReferenceIdeal.S50000, .i32⟩ : BufTy).Contents (Elt Ideal))
    (h2 : U (Proc.devRef .tc main_arg2) = x2) :
    StableHlo.after (Gen.hostOps3 (F := Ideal)) U (Proc.devRef .tc main_v115)
      = shapeCast S512x1 (Read.val_main_v118 (F := Ideal) x2) shapeCasts_S512_S512x1 := by
  simp only [Gen.hostOps3]
  after_results_simp
  rw [h2]
  rfl

/-- The per-graph sums of the third layer's rows: the third aggregation from the third region's output, plus the
    layer's bias on every row, added along the graph numbers into a zero array of 512 rows: the reference's pooled
    sums. -/
theorem after3_v110 (U : Valuation τ sig (Elt Ideal))
    (x0 : (⟨Cert.ReferenceIdeal.S50000x128, .f32⟩ : BufTy).Contents (Elt Ideal))
    (x1 : (⟨Cert.ReferenceIdeal.S2x1600000, .i32⟩ : BufTy).Contents (Elt Ideal))
    (x2 : (⟨Cert.ReferenceIdeal.S50000, .i32⟩ : BufTy).Contents (Elt Ideal))
    (x3 : (⟨Cert.ReferenceIdeal.S1600000, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S128x128, .f32⟩ : BufTy).Contents (Elt Ideal))
    (x7 : (⟨Cert.ReferenceIdeal.S128, .f32⟩ : BufTy).Contents (Elt Ideal))
    (x8 : (⟨Cert.ReferenceIdeal.S128x128, .f32⟩ : BufTy).Contents (Elt Ideal))
    (x9 : (⟨Cert.ReferenceIdeal.S128, .f32⟩ : BufTy).Contents (Elt Ideal))
    (h91 : U (Proc.devRef .tc main_v91) = Read.val_main_v95 (F := Ideal) x0 x1 x3 x4 x5 x6 x7 x8)
    (h5 : U (Proc.devRef .tc main_v5) = Read.val_main_v5 (F := Ideal) x1)
    (h6 : U (Proc.devRef .tc main_v6) = Read.val_main_v6 (F := Ideal) x1)
    (h58 : U (Proc.devRef .tc main_v58) = Read.val_main_v58 (F := Ideal) x1 x3)
    (h2 : U (Proc.devRef .tc main_arg2) = x2)
    (h9 : U (Proc.devRef .tc main_arg9) = x9) :
    StableHlo.after (Gen.hostOps3 (F := Ideal)) U (Proc.devRef .tc main_v110)
      = Read.val_main_v114 (F := Ideal) x0 x1 x2 x3 x4 x5 x6 x7 x8 x9 := by
  simp only [Gen.hostOps3]
  after_results_simp
  rw [h91, h5, h6, h58, h2, h9]
  rfl

/-! ## Stretch 3: what it writes -/

/-- The buffers the operations of stretch 3 write, in order. -/
abbrev hostOps3_W : List (Ref sig .tc) :=
  [main_c_23, main_v92, main_v93, main_c_24, main_v94, main_v95, main_v96, main_v97, main_v98, main_v99, main_v100, main_v101, main_cst_25, main_v102, main_v103, main_v104, main_v105, main_v106, main_v107, main_cst_26, main_v108, main_v109, main_v110, main_cst_27, main_v111, main_cst_28, main_v112, main_v113, main_v114, main_v115, main_v116]

/-- Every operation of stretch 3 writes one buffer of that list. -/
theorem hostOps3_writes : (Gen.hostOps3 (F := Ideal)).Forall fun op =>
    op.writes ⊆ (hostOps3_W.map (Proc.devRef (τ := τ) .tc)).toFinset := by
  simp only [Gen.hostOps3, List.Forall]
  repeat' apply And.intro
  all_goals
    simp only [StableHlo.nullary_writes, StableHlo.unary_writes, StableHlo.binary_writes, StableHlo.ternary_writes, StableHlo.quaternary_writes, StableHlo.reshape_writes, Finset.singleton_subset_iff, List.mem_toFinset]
    exact List.mem_map_of_mem (by decide)

/-- Stretch 3 leaves alone the head's weights: none of its operations writes one of them. -/
theorem after3_keep (U : Valuation τ sig (Elt Ideal)) (b : Ref sig .tc)
    (hb : b ∈ ([main_arg10] : List (Ref sig .tc))) :
    StableHlo.after (Gen.hostOps3 (F := Ideal)) U (Proc.devRef .tc b) = U (Proc.devRef .tc b) :=
  StableHlo.after_of_writes_sub _ U hostOps3_writes
    ((by decide : ∀ r ∈ ([main_arg10] : List (Ref sig .tc)), r ∉ hostOps3_W) b hb)

end Cert.KernelIdeal.Fold
-- ==== Proof.KValue.lean ====
/-
  What the idealized kernel program leaves in its result buffer, as the reference's own composition of stages.

  The buffer contents at the segment boundaries are followed from the launch to the return. Before the first
  region the host operations leave the edge endpoints, and the two normalised edge-weight vectors, at the same
  stages of the arguments as in the reference. Each projection region leaves the whole-array product of its input
  arrays (the tiles cover the rows), which is the reference's host product of the same operands; each host stretch
  between two regions is the reference's gather, scale and scatter-add of what it finds; a buffer no later
  segment writes keeps its contents. The last region leaves the pooled and classified result.
-/
import proofs.«161608_j5875515261182_1_alg».proof.Proof.Gen.KernelIdeal.Frame
import proofs.«161608_j5875515261182_1_alg».proof.Proof.Gen.ReferenceIdeal.Read
import proofs.«161608_j5875515261182_1_alg».proof.Proof.Spec
import proofs.«161608_j5875515261182_1_alg».proof.Proof.ProjRegion0
import proofs.«161608_j5875515261182_1_alg».proof.Proof.ProjRegion1
import proofs.«161608_j5875515261182_1_alg».proof.Proof.ProjRegion2
import proofs.«161608_j5875515261182_1_alg».proof.Proof.PoolRegion
import proofs.«161608_j5875515261182_1_alg».proof.Proof.RefIsSpec
import proofs.«161608_j5875515261182_1_alg».proof.Proof.FoldA
import proofs.«161608_j5875515261182_1_alg».proof.Proof.FoldB

set_option maxRecDepth 16384

noncomputable section

namespace Cert.KernelIdeal.KValue

open Cert.KernelIdeal Cert.KernelIdeal.Gen Cert.KernelIdeal.Regions Cert.KernelIdeal.Fold Cert.RefSpec
open Idealize.ShloMosaic Idealize.ShloMosaic.TcCoe Idealize.SL.Sem

variable (m : (ℓ : Loc nD τ sig) → Buf (Elt Ideal) ℓ) (ρ : Dev nD → PrngReg) (c : Dev nD)

/-! ## Region 0: x·W1 -/
theorem W6_v61 : W6 m ρ c (Proc.devRef .tc main_v61) = Cert.ReferenceIdeal.Read.val_main_v59 (F := Ideal) (m ((c : Thread nD τ).loc main_arg0)) (m ((c : Thread nD τ).loc main_arg4)) := by
  refine (W6_arr m ρ c 3).trans ?_
  rw [final0 (V5 m ρ) c]
  show Cert.Spec.proj (W5 m ρ c (Proc.devRef .tc main_arg0)) (W5 m ρ c (Proc.devRef .tc main_arg4)) = _
  rw [W5_arg0 m ρ c, W5_arg4 m ρ c]
  exact (ref_v59 _ _).symm

/-- A buffer that region 0 does not own keeps the contents it was entered with. -/
theorem W6_keep (b : Ref sig .tc) (hb : ∀ w, Pipeline.arrRef spec0 w ≠ b) :
    W6 m ρ c (Proc.devRef .tc b) = W5 m ρ c (Proc.devRef .tc b) := W6_of_ne m ρ c b hb

/-! ## The first aggregation, and region 1 -/
theorem W7_v74 : W7 m ρ c (Proc.devRef .tc main_v74) = Cert.ReferenceIdeal.Read.val_main_v72 (F := Ideal) (m ((c : Thread nD τ).loc main_arg0)) (m ((c : Thread nD τ).loc main_arg1)) (m ((c : Thread nD τ).loc main_arg3)) (m ((c : Thread nD τ).loc main_arg4)) :=
  after1_v74 (W6 m ρ c) _ _ _ _ (W6_v61 m ρ c)
    ((W6_keep m ρ c main_v5 (by decide)).trans (W5_v5 m ρ c))
    ((W6_keep m ρ c main_v6 (by decide)).trans (W5_v6 m ρ c))
    ((W6_keep m ρ c main_v32 (by decide)).trans (W5_v32 m ρ c))

theorem W7_v75 : W7 m ρ c (Proc.devRef .tc main_v75) = shapeCast S1x128 (m ((c : Thread nD τ).loc main_arg5)) shapeCasts_S128_S1x128 := by
  refine (after1_v75 (W6 m ρ c)).trans ?_
  rw [W6_keep m ρ c main_arg5 (by decide), W5_arg5 m ρ c]

/-- What the host stretch after region 0 does not write is as before region 0. -/
theorem W7_keep (b : Ref sig .tc) (h0 : ∀ w, Pipeline.arrRef spec0 w ≠ b)
    (h1 : b ∈ [main_v5, main_v6, main_v58, main_arg2, main_arg6, main_arg7, main_arg8, main_arg9, main_arg10, main_arg11]) :
    W7 m ρ c (Proc.devRef .tc b) = W5 m ρ c (Proc.devRef .tc b) :=
  (after1_keep (W6 m ρ c) b h1).trans (W6_keep m ρ c b h0)

theorem W8_v76 : W8 m ρ c (Proc.devRef .tc main_v76)
    = Cert.ReferenceIdeal.Read.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W8_arr m ρ c 3).trans ?_
  rw [final1 (V7 m ρ) c]
  show Cert.Spec.projRelu (W7 m ρ c (Proc.devRef .tc main_v74)) (W7 m ρ c (Proc.devRef .tc main_v75)) (W7 m ρ c (Proc.devRef .tc main_arg6)) = _
  rw [W7_v74, W7_v75, W7_keep m ρ c main_arg6 (by decide) (by simp), W5_arg6 m ρ c]
  exact (ref_v77 _ _ _ _ _ _ shapeCasts_S128_S1x128).symm

theorem W8_keep (b : Ref sig .tc) (h0 : ∀ w, Pipeline.arrRef spec0 w ≠ b) (h1' : ∀ w, Pipeline.arrRef spec1 w ≠ b)
    (h1 : b ∈ [main_v5, main_v6, main_v58, main_arg2, main_arg6, main_arg7, main_arg8, main_arg9, main_arg10, main_arg11]) :
    W8 m ρ c (Proc.devRef .tc b) = W5 m ρ c (Proc.devRef .tc b) :=
  (W8_of_ne m ρ c b h1').trans (W7_keep m ρ c b h0 h1)

/-! ## The second aggregation, and region 2 -/
theorem W9_v89 : W9 m ρ c (Proc.devRef .tc main_v89)
    = Cert.ReferenceIdeal.Read.val_main_v90 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  after2_v89 (W8 m ρ c) _ _ _ _ _ _ (W8_v76 m ρ c)
    ((W8_keep m ρ c main_v5 (by decide) (by decide) (by simp)).trans (W5_v5 m ρ c))
    ((W8_keep m ρ c main_v6 (by decide) (by decide) (by simp)).trans (W5_v6 m ρ c))
    ((W8_keep m ρ c main_v58 (by decide) (by decide) (by simp)).trans (W5_v58 m ρ c))

theorem W9_v90 : W9 m ρ c (Proc.devRef .tc main_v90) = shapeCast S1x128 (m ((c : Thread nD τ).loc main_arg7)) shapeCasts_S128_S1x128 := by
  refine (after2_v90 (W8 m ρ c)).trans ?_
  rw [W8_keep m ρ c main_arg7 (by decide) (by decide) (by simp), W5_arg7 m ρ c]

theorem W9_keep (b : Ref sig .tc) (h0 : ∀ w, Pipeline.arrRef spec0 w ≠ b) (h1' : ∀ w, Pipeline.arrRef spec1 w ≠ b)
    (h1 : b ∈ [main_v5, main_v6, main_v58, main_arg2, main_arg6, main_arg7, main_arg8, main_arg9, main_arg10, main_arg11])
    (h2 : b ∈ [main_v5, main_v6, main_v58, main_arg2, main_arg8, main_arg9, main_arg10, main_arg11]) :
    W9 m ρ c (Proc.devRef .tc b) = W5 m ρ c (Proc.devRef .tc b) :=
  (after2_keep (W8 m ρ c) b h2).trans (W8_keep m ρ c b h0 h1' h1)

theorem W10_v91 : W10 m ρ c (Proc.devRef .tc main_v91)
    = Cert.ReferenceIdeal.Read.val_main_v95 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W10_arr m ρ c 3).trans ?_
  rw [final2 (V9 m ρ) c]
  show Cert.Spec.projRelu (W9 m ρ c (Proc.devRef .tc main_v89)) (W9 m ρ c (Proc.devRef .tc main_v90)) (W9 m ρ c (Proc.devRef .tc main_arg8)) = _
  rw [W9_v89, W9_v90, W9_keep m ρ c main_arg8 (by decide) (by decide) (by simp) (by simp), W5_arg8 m ρ c]
  exact (ref_v95 _ _ _ _ _ _ _ _ shapeCasts_S128_S1x128).symm

theorem W10_keep (b : Ref sig .tc) (h0 : ∀ w, Pipeline.arrRef spec0 w ≠ b) (h1' : ∀ w, Pipeline.arrRef spec1 w ≠ b) (h2' : ∀ w, Pipeline.arrRef spec2 w ≠ b)
    (h1 : b ∈ [main_v5, main_v6, main_v58, main_arg2, main_arg6, main_arg7, main_arg8, main_arg9, main_arg10, main_arg11])
    (h2 : b ∈ [main_v5, main_v6, main_v58, main_arg2, main_arg8, main_arg9, main_arg10, main_arg11]) :
    W10 m ρ c (Proc.devRef .tc b) = W5 m ρ c (Proc.devRef .tc b) :=
  (W10_of_ne m ρ c b h2').trans (W9_keep m ρ c b h0 h1' h1 h2)

/-! ## The third aggregation, the pooling sums and counts, and region 3 -/
theorem W11_v110 : W11 m ρ c (Proc.devRef .tc main_v110)
    = Cert.ReferenceIdeal.Read.val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  after3_v110 (W10 m ρ c) _ _ _ _ _ _ _ _ _ _ (W10_v91 m ρ c)
    ((W10_keep m ρ c main_v5 (by decide) (by decide) (by decide) (by simp) (by simp)).trans (W5_v5 m ρ c))
    ((W10_keep m ρ c main_v6 (by decide) (by decide) (by decide) (by simp) (by simp)).trans (W5_v6 m ρ c))
    ((W10_keep m ρ c main_v58 (by decide) (by decide) (by decide) (by simp) (by simp)).trans (W5_v58 m ρ c))
    ((W10_keep m ρ c main_arg2 (by decide) (by decide) (by decide) (by simp) (by simp)).trans (W5_arg2 m ρ c))
    ((W10_keep m ρ c main_arg9 (by decide) (by decide) (by decide) (by simp) (by simp)).trans (W5_arg9 m ρ c))

theorem W11_v115 : W11 m ρ c (Proc.devRef .tc main_v115)
    = shapeCast S512x1 (Cert.ReferenceIdeal.Read.val_main_v118 (F := Ideal) (m ((c : Thread nD τ).loc main_arg2))) shapeCasts_S512_S512x1 :=
  after3_v115 (W10 m ρ c) _
    ((W10_keep m ρ c main_arg2 (by decide) (by decide) (by decide) (by simp) (by simp)).trans (W5_arg2 m ρ c))

theorem W11_v116 : W11 m ρ c (Proc.devRef .tc main_v116) = shapeCast S1x10 (m ((c : Thread nD τ).loc main_arg11)) shapeCasts_S10_S1x10 := by
  refine (after3_v116 (W10 m ρ c)).trans ?_
  rw [W10_keep m ρ c main_arg11 (by decide) (by decide) (by decide) (by simp) (by simp), W5_arg11 m ρ c]

theorem W11_arg10 : W11 m ρ c (Proc.devRef .tc main_arg10) = (m ((c : Thread nD τ).loc main_arg10)) :=
  (after3_keep (W10 m ρ c) main_arg10 (by simp)).trans
    ((W10_keep m ρ c main_arg10 (by decide) (by decide) (by decide) (by simp) (by simp)).trans (W5_arg10 m ρ c))

theorem result : W12 m ρ c (Proc.devRef .tc main_v117)
    = Cert.ReferenceIdeal.Read.val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W12_arr m ρ c 4).trans ?_
  rw [final3 (V11 m ρ) c]
  show Cert.Spec.pool (W11 m ρ c (Proc.devRef .tc main_v110)) (W11 m ρ c (Proc.devRef .tc main_v115)) (W11 m ρ c (Proc.devRef .tc main_arg10)) (W11 m ρ c (Proc.devRef .tc main_v116)) = _
  rw [W11_v110, W11_v115, W11_arg10, W11_v116]
  exact (ref_v127 _ _ _ _ _ _ _ _ _ _ _ _ shapeCasts_S512_S512x1 shapeCasts_S10_S1x10).symm

end Cert.KernelIdeal.KValue

end
-- ==== Proof.lean ====
/-
  A three-layer graph convolution with mean pooling and a linear head, kernel against reference, on the extended reals.

  Both programs normalise the edge weights by the degrees, and in each layer gather the projected node rows along the
  edges, scale them and add them into their target nodes, with the same host operations in the same order. They
  differ in where the dense products are taken: the kernel computes x·W1, max(a + b, 0)·W2, max(a + b, 0)·W3 in
  row-tiled pipelined regions (blocks of 10000 rows, the operands rounded to a shorter float format on the way into the
  matrix unit) and the pooled head (s / max(count, 1))·W + b in one more region, while the reference takes host
  products of whole arrays. On the extended reals a change of float format is the identity and both a matrix-unit product into a zero
  accumulator and a host product are the sum over the contracted coordinate of the products of entries; the tiles cover the
  rows, so each region's output array is the whole-array product. The result is then the same composition of stages
  of the same arguments on both sides. No sum is re-associated across an infinity and nothing is cancelled, so the
  finiteness of the inputs is never used.

  The kernel's value is read off its run segment by segment (KRun, KValue); the reference's run and its stages are
  the generated modules; the frames are the generated ones.
-/
import proofs.«161608_j5875515261182_1_alg».proof.Defs
import proofs.«161608_j5875515261182_1_alg».proof.Proof.Gen.Kernel
import proofs.«161608_j5875515261182_1_alg».proof.Proof.Gen.Kernel.Frame
import proofs.«161608_j5875515261182_1_alg».proof.Proof.Gen.KernelIdeal
import proofs.«161608_j5875515261182_1_alg».proof.Proof.Gen.KernelIdeal.Frame
import proofs.«161608_j5875515261182_1_alg».proof.Proof.Gen.ReferenceIdeal
import proofs.«161608_j5875515261182_1_alg».proof.Proof.Gen.ReferenceIdeal.Run
import proofs.«161608_j5875515261182_1_alg».proof.Proof.Gen.ReferenceIdeal.Read
import proofs.«161608_j5875515261182_1_alg».proof.Proof.Gen.Pre_finite_inputs
import proofs.«161608_j5875515261182_1_alg».proof.Proof.KRun
import proofs.«161608_j5875515261182_1_alg».proof.Proof.KValue
import Idealize.ShloMosaic.Adequacy
import Idealize.ShloMosaic.Init

noncomputable section

namespace Cert.Proof

open Idealize.ShloMosaic Idealize.ShloMosaic.TcCoe Idealize.SL.Sem

section Claims

variable [hKernel : Cert.Kernel.Facts] [hKernelIdeal : Cert.KernelIdeal.Facts] [hReferenceIdeal : Cert.ReferenceIdeal.Facts]
  [hPre : Cert.Pre_finite_inputs.Facts]

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's composition of stages of the (agreeing) arguments in their result buffers. -/
theorem algebraic : Cert.algebraic_KernelIdeal_ReferenceIdeal := by
  intro m ρ m' ρ' _ hagree
  refine ⟨fun c => Cert.ReferenceIdeal.Read.val_main_v127 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KValue.result m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v127_eq, e0, e1, e2, e3, e4, e5, e6, e7, e8, e9, e10, e11]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
